-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S512x64 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S64x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4x8x8x512x64 : Shape := ⟨5, ![4, 8, 8, 512, 64]⟩
abbrev S4x8x8x64x512 : Shape := ⟨5, ![4, 8, 8, 64, 512]⟩
abbrev S4x8x8x1x1 : Shape := ⟨5, ![4, 8, 8, 1, 1]⟩
abbrev S8x8x1x1 : Shape := ⟨4, ![8, 8, 1, 1]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4x8x8x512x64 : S_.BroadcastsInDim S4x8x8x512x64 (![] : Fin 0 → Fin S4x8x8x512x64.rank)
  reducesTo_S4x8x8x512x64_S_d0_1_2_3_4 : S4x8x8x512x64.ReducesTo [0, 1, 2, 3, 4] S_
  bcast_S_S4x8x8x64x512 : S_.BroadcastsInDim S4x8x8x64x512 (![] : Fin 0 → Fin S4x8x8x64x512.rank)
  reducesTo_S4x8x8x64x512_S_d0_1_2_3_4 : S4x8x8x64x512.ReducesTo [0, 1, 2, 3, 4] S_
  bcast_S_S4x8x8x1x1 : S_.BroadcastsInDim S4x8x8x1x1 (![] : Fin 0 → Fin S4x8x8x1x1.rank)
  reducesTo_S4x8x8x1x1_S_d0_1_2_3_4 : S4x8x8x1x1.ReducesTo [0, 1, 2, 3, 4] S_
  bcast_S_S8x8x1x1 : S_.BroadcastsInDim S8x8x1x1 (![] : Fin 0 → Fin S8x8x1x1.rank)
  reducesTo_S8x8x1x1_S_d0_1_2_3 : S8x8x1x1.ReducesTo [0, 1, 2, 3] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S4x8x8x1x1 .f32) (main_arg5 : FVec F S4x8x8x1x1 .f32) (main_arg6 : FVec F S8x8x1x1 .f32) (main_arg7 : FVec F S4096 .f32) (main_v13 : IVec S_ 1) (main_v16 : IVec S4x8x8x1x1 1) : IVec S_ 1 :=
  let main_c_5 : IVec S_ 1 := constantI S_ 1 1#1
  let main_v17 : IVec S_ 1 := (fun x v => Host.reduce IntOp.andi x v reducesTo_S4x8x8x1x1_S_d0_1_2_3_4 h_S_) main_v16 main_c_5
  let main_v18 : IVec S_ 1 := andi main_v13 main_v17
  let main_v19 : FVec F S4x8x8x1x1 .f32 := Host.absf main_arg4
  let main_cst_6 : FVec F S_ .f32 := constant S_ .f32 0x7F800000#32
  let main_v20 : FVec F S4x8x8x1x1 .f32 := broadcastInDim S4x8x8x1x1 ![] bcast_S_S4x8x8x1x1 main_cst_6
  let main_v21 : IVec S4x8x8x1x1 1 := cmpf .olt main_v19 main_v20
  let main_c_7 : IVec S_ 1 := constantI S_ 1 1#1
  let main_v22 : IVec S_ 1 := (fun x v => Host.reduce IntOp.andi x v reducesTo_S4x8x8x1x1_S_d0_1_2_3_4 h_S_) main_v21 main_c_7
  let main_v23 : IVec S_ 1 := andi main_v18 main_v22
  let main_v24 : FVec F S4x8x8x1x1 .f32 := Host.absf main_arg5
  let main_cst_8 : FVec F S_ .f32 := constant S_ .f32 0x7F800000#32
  let main_v25 : FVec F S4x8x8x1x1 .f32 := broadcastInDim S4x8x8x1x1 ![] bcast_S_S4x8x8x1x1 main_cst_8
  let main_v26 : IVec S4x8x8x1x1 1 := cmpf .olt main_v24 main_v25
  let main_c_9 : IVec S_ 1 := constantI S_ 1 1#1
  let main_v27 : IVec S_ 1 := (fun x v => Host.reduce IntOp.andi x v reducesTo_S4x8x8x1x1_S_d0_1_2_3_4 h_S_) main_v26 main_c_9
  let main_v28 : IVec S_ 1 := andi main_v23 main_v27
  let main_v29 : FVec F S8x8x1x1 .f32 := Host.absf main_arg6
  let main_cst_10 : FVec F S_ .f32 := constant S_ .f32 0x7F800000#32
  let main_v30 : FVec F S8x8x1x1 .f32 := broadcastInDim S8x8x1x1 ![] bcast_S_S8x8x1x1 main_cst_10
  let main_v31 : IVec S8x8x1x1 1 := cmpf .olt main_v29 main_v30
  let main_c_11 : IVec S_ 1 := constantI S_ 1 1#1
  let main_v32 : IVec S_ 1 := (fun x v => Host.reduce IntOp.andi x v reducesTo_S8x8x1x1_S_d0_1_2_3 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S4x8x8x512x64 .f32) (main_arg2 : FVec F S4x8x8x64x512 .f32) (main_arg3 : FVec F S4x8x8x1x1 .f32) (main_arg4 : FVec F S4x8x8x1x1 .f32) (main_arg5 : FVec F S4x8x8x1x1 .f32) (main_arg6 : FVec F S8x8x1x1 .f32) (main_arg7 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4x8x8x512x64 .f32 := Host.absf main_arg1
  let main_cst_0 : FVec F S_ .f32 := constant S_ .f32 0x7F800000#32
  let main_v5 : FVec F S4x8x8x512x64 .f32 := broadcastInDim S4x8x8x512x64 ![] bcast_S_S4x8x8x512x64 main_cst_0
  let main_v6 : IVec S4x8x8x512x64 1 := cmpf .olt main_v4 main_v5
  let main_c_1 : IVec S_ 1 := constantI S_ 1 1#1
  let main_v7 : IVec S_ 1 := (fun x v => Host.reduce IntOp.andi x v reducesTo_S4x8x8x512x64_S_d0_1_2_3_4 h_S_) main_v6 main_c_1
  let main_v8 : IVec S_ 1 := andi main_v3 main_v7
  let main_v9 : FVec F S4x8x8x64x512 .f32 := Host.absf main_arg2
  let main_cst_2 : FVec F S_ .f32 := constant S_ .f32 0x7F800000#32
  let main_v10 : FVec F S4x8x8x64x512 .f32 := broadcastInDim S4x8x8x64x512 ![] bcast_S_S4x8x8x64x512 main_cst_2
  let main_v11 : IVec S4x8x8x64x512 1 := cmpf .olt main_v9 main_v10
  let main_c_3 : IVec S_ 1 := constantI S_ 1 1#1
  let main_v12 : IVec S_ 1 := (fun x v => Host.reduce IntOp.andi x v reducesTo_S4x8x8x64x512_S_d0_1_2_3_4 h_S_) main_v11 main_c_3
  let main_v13 : IVec S_ 1 := andi main_v8 main_v12
  let main_v14 : FVec F S4x8x8x1x1 .f32 := Host.absf main_arg3
  let main_cst_4 : FVec F S_ .f32 := constant S_ .f32 0x7F800000#32
  let main_v15 : FVec F S4x8x8x1x1 .f32 := broadcastInDim S4x8x8x1x1 ![] bcast_S_S4x8x8x1x1 main_cst_4
  let main_v16 : IVec S4x8x8x1x1 1 := cmpf .olt main_v14 main_v15
  fn_part1 (F := F) main_arg4 main_arg5 main_arg6 main_arg7 main_v13 main_v16
-- ==== Kernel.lean ====
abbrev S4096x4096 : Shape := ⟨2, ![4096, 4096]⟩
abbrev S4x8x8x512x64 : Shape := ⟨5, ![4, 8, 8, 512, 64]⟩
abbrev S4x8x8x64x512 : Shape := ⟨5, ![4, 8, 8, 64, 512]⟩
abbrev S4x8x8x1x1 : Shape := ⟨5, ![4, 8, 8, 1, 1]⟩
abbrev S8x8x1x1 : Shape := ⟨4, ![8, 8, 1, 1]⟩
abbrev S4096 : Shape := ⟨1, ![4096]⟩
abbrev S4x1x1x512x64 : Shape := ⟨5, ![4, 1, 1, 512, 64]⟩
abbrev S4x1x1x64x512 : Shape := ⟨5, ![4, 1, 1, 64, 512]⟩
abbrev S4x1x1x1x1 : Shape := ⟨5, ![4, 1, 1, 1, 1]⟩
abbrev S1x1x1x1 : Shape := ⟨4, ![1, 1, 1, 1]⟩
abbrev S512x512 : Shape := ⟨2, ![512, 512]⟩
abbrev S1x1x1x512x64 : Shape := ⟨5, ![1, 1, 1, 512, 64]⟩
abbrev S512x64 : Shape := ⟨2, ![512, 64]⟩
abbrev S1x1x1x64x512 : Shape := ⟨5, ![1, 1, 1, 64, 512]⟩
abbrev S64x512 : Shape := ⟨2, ![64, 512]⟩
abbrev S512 : Shape := ⟨1, ![512]⟩
abbrev S512x1 : Shape := ⟨2, ![512, 1]⟩
abbrev S1x512 : Shape := ⟨2, ![1, 512]⟩
abbrev S1x1x1x1x1 : Shape := ⟨5, ![1, 1, 1, 1, 1]⟩
abbrev S1x1 : Shape := ⟨2, ![1, 1]⟩
abbrev S1024x512 : Shape := ⟨2, ![1024, 512]⟩
abbrev S2048x512 : Shape := ⟨2, ![2048, 512]⟩
abbrev S2048 : Shape := ⟨1, ![2048]⟩
abbrev S1024x2048 : Shape := ⟨2, ![1024, 2048]⟩
abbrev S1x2048 : Shape := ⟨2, ![1, 2048]⟩

abbrev nBuf : Space → Nat
  | .hbm => 10
  | .vmem => 23
  | .smem => 0
  | _ => 0

abbrev bufTy : (tb : Table) → Fin (tcTables nBuf tb) → BufTy
  | .hbm, ⟨0, _⟩ => ⟨S4096x4096, .f32⟩
  | .hbm, ⟨1, _⟩ => ⟨S4x8x8x512x64, .f32⟩
  | .hbm, ⟨2, _⟩ => ⟨S4x8x8x64x512, .f32⟩
  | .hbm, ⟨3, _⟩ => ⟨S4x8x8x1x1, .f32⟩
  | .hbm, ⟨4, _⟩ => ⟨S4x8x8x1x1, .f32⟩
  | .hbm, ⟨5, _⟩ => ⟨S4x8x8x1x1, .f32⟩
  | .hbm, ⟨6, _⟩ => ⟨S8x8x1x1, .f32⟩
  | .hbm, ⟨7, _⟩ => ⟨S4096, .f32⟩
  | .hbm, ⟨8, _⟩ => ⟨S4096x4096, .bf16⟩
  | .hbm, ⟨9, _⟩ => ⟨S4096x4096, .f32⟩
  | .local _ .vmem, ⟨0, _⟩ => ⟨S4x1x1x512x64, .f32⟩
  | .local _ .vmem, ⟨1, _⟩ => ⟨S4x1x1x512x64, .f32⟩
  | .local _ .vmem, ⟨2, _⟩ => ⟨S4x1x1x64x512, .f32⟩
  | .local _ .vmem, ⟨3, _⟩ => ⟨S4x1x1x64x512, .f32⟩
  | .local _ .vmem, ⟨4, _⟩ => ⟨S4x1x1x1x1, .f32⟩
  | .local _ .vmem, ⟨5, _⟩ => ⟨S4x1x1x1x1, .f32⟩
  | .local _ .vmem, ⟨6, _⟩ => ⟨S4x1x1x1x1, .f32⟩
  | .local _ .vmem, ⟨7, _⟩ => ⟨S4x1x1x1x1, .f32⟩
  | .local _ .vmem, ⟨8, _⟩ => ⟨S4x1x1x1x1, .f32⟩
  | .local _ .vmem, ⟨9, _⟩ => ⟨S4x1x1x1x1, .f32⟩
  | .local _ .vmem, ⟨10, _⟩ => ⟨S1x1x1x1, .f32⟩
  | .local _ .vmem, ⟨11, _⟩ => ⟨S1x1x1x1, .f32⟩
  | .local _ .vmem, ⟨12, _⟩ => ⟨S512x512, .bf16⟩
  | .local _ .vmem, ⟨13, _⟩ => ⟨S512x512, .bf16⟩
  | .local _ .vmem, ⟨14, _⟩ => ⟨S1024x512, .f32⟩
  | .local _ .vmem, ⟨15, _⟩ => ⟨S1024x512, .f32⟩
  | .local _ .vmem, ⟨16, _⟩ => ⟨S2048x512, .bf16⟩
  | .local _ .vmem, ⟨17, _⟩ => ⟨S2048x512, .bf16⟩
  | .local _ .vmem, ⟨18, _⟩ => ⟨S2048, .f32⟩
  | .local _ .vmem, ⟨19, _⟩ => ⟨S2048, .f32⟩
  | .local _ .vmem, ⟨20, _⟩ => ⟨S1024x2048, .f32⟩
  | .local _ .vmem, ⟨21, _⟩ => ⟨S1024x2048, .f32⟩
  | .local _ .vmem, ⟨22, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S4x1x1x512x64_S1x1x1x512x64_0_0_0_0_0 : ∀ a, (![0, 0, 0, 0, 0] : Fin 5 → Nat) a + S1x1x1x512x64.size a ≤ S4x1x1x512x64.size a
  h_S1x1x1x512x64 : 0 < S1x1x1x512x64.numel
  shapeCasts_S1x1x1x512x64_S512x64 : S1x1x1x512x64.ShapeCasts S512x64
  natLt_1_32 : 1 < 32
  bitsLt_bf16_f32 : FTy.bits .bf16 < FTy.bits .f32
  inb_S4x1x1x64x512_S1x1x1x64x512_0_0_0_0_0 : ∀ a, (![0, 0, 0, 0, 0] : Fin 5 → Nat) a + S1x1x1x64x512.size a ≤ S4x1x1x64x512.size a
  h_S1x1x1x64x512 : 0 < S1x1x1x64x512.numel
  shapeCasts_S1x1x1x64x512_S64x512 : S1x1x1x64x512.ShapeCasts S64x512
  reduces_S512x64_S512 : S512x64.Reduces [1] S512
  shapeCasts_S512_S512x1 : S512.ShapeCasts S512x1
  reduces_S64x512_S512 : S64x512.Reduces [0] S512
  shapeCasts_S512_S1x512 : S512.ShapeCasts S1x512
  inb_S4x1x1x1x1_S1x1x1x1x1_0_0_0_0_0 : ∀ a, (![0, 0, 0, 0, 0] : Fin 5 → Nat) a + S1x1x1x1x1.size a ≤ S4x1x1x1x1.size a
  h_S1x1x1x1x1 : 0 < S1x1x1x1x1.numel
  shapeCasts_S1x1x1x1x1_S1x1 : S1x1x1x1x1.ShapeCasts S1x1
  broadcasts_S1x1_S512x512 : S1x1.Broadcasts S512x512
  broadcasts_S1x1_S512x1 : S1x1.Broadcasts S512x1
  broadcasts_S512x1_S512x512 : S512x1.Broadcasts S512x512
  broadcasts_S1x1_S1x512 : S1x1.Broadcasts S1x512
  broadcasts_S1x512_S512x512 : S1x512.Broadcasts S512x512
  inb_S4x1x1x512x64_S1x1x1x512x64_1_0_0_0_0 : ∀ a, (![1, 0, 0, 0, 0] : Fin 5 → Nat) a + S1x1x1x512x64.size a ≤ S4x1x1x512x64.size a
  inb_S4x1x1x64x512_S1x1x1x64x512_1_0_0_0_0 : ∀ a, (![1, 0, 0, 0, 0] : Fin 5 → Nat) a + S1x1x1x64x512.size a ≤ S4x1x1x64x512.size a
  inb_S4x1x1x1x1_S1x1x1x1x1_1_0_0_0_0 : ∀ a, (![1, 0, 0, 0, 0] : Fin 5 → Nat) a + S1x1x1x1x1.size a ≤ S4x1x1x1x1.size a
  inb_S4x1x1x512x64_S1x1x1x512x64_2_0_0_0_0 : ∀ a, (![2, 0, 0, 0, 0] : Fin 5 → Nat) a + S1x1x1x512x64.size a ≤ S4x1x1x512x64.size a
  inb_S4x1x1x64x512_S1x1x1x64x512_2_0_0_0_0 : ∀ a, (![2, 0, 0, 0, 0] : Fin 5 → Nat) a + S1x1x1x64x512.size a ≤ S4x1x1x64x512.size a
  inb_S4x1x1x1x1_S1x1x1x1x1_2_0_0_0_0 : ∀ a, (![2, 0, 0, 0, 0] : Fin 5 → Nat) a + S1x1x1x1x1.size a ≤ S4x1x1x1x1.size a
  inb_S4x1x1x512x64_S1x1x1x512x64_3_0_0_0_0 : ∀ a, (![3, 0, 0, 0, 0] : Fin 5 → Nat) a + S1x1x1x512x64.size a ≤ S4x1x1x512x64.size a
  inb_S4x1x1x64x512_S1x1x1x64x512_3_0_0_0_0 : ∀ a, (![3, 0, 0, 0, 0] : Fin 5 → Nat) a + S1x1x1x64x512.size a ≤ S4x1x1x64x512.size a
  inb_S4x1x1x1x1_S1x1x1x1x1_3_0_0_0_0 : ∀ a, (![3, 0, 0, 0, 0] : Fin 5 → Nat) a + S1x1x1x1x1.size a ≤ S4x1x1x1x1.size a
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S1x1x1x1_S1x1 : S1x1x1x1.ShapeCasts S1x1
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  dot_S512x64_S64x512_S512x512_1_0_0_1_n_n_wf : DotDims.WF S512x64 S64x512 S512x512 [1] [0] [0] [1] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x1x512x64.size a ≤ S4x8x8x512x64.size a
  hwx0_0 : ∀ i : grid0.Coords, EltTy.bits .f32 = 32 ∨ (Rect.block (s := S4x8x8x512x64) S4x1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x1x64x512.size a ≤ S4x8x8x64x512.size a
  hwx0_1 : ∀ i : grid0.Coords, EltTy.bits .f32 = 32 ∨ (Rect.block (s := S4x8x8x64x512) S4x1x1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x1x1x1.size a ≤ S4x8x8x1x1.size a
  hwx0_2 : ∀ i : grid0.Coords, EltTy.bits .f32 = 32 ∨ (Rect.block (s := S4x8x8x1x1) S4x1x1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x1x1x1.size a ≤ S4x8x8x1x1.size a
  hwx0_3 : ∀ i : grid0.Coords, EltTy.bits .f32 = 32 ∨ (Rect.block (s := S4x8x8x1x1) S4x1x1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x1x1x1.size a ≤ S4x8x8x1x1.size a
  hwx0_4 : ∀ i : grid0.Coords, EltTy.bits .f32 = 32 ∨ (Rect.block (s := S4x8x8x1x1) S4x1x1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1x1.size a ≤ S8x8x1x1.size a
  hwx0_5 : ∀ i : grid0.Coords, EltTy.bits .f32 = 32 ∨ (Rect.block (s := S8x8x1x1) S1x1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x4096.size a
  hwx0_6 : ∀ i : grid0.Coords, EltTy.bits .bf16 = 32 ∨ (Rect.block (s := S4096x4096) S512x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x4096.size a
  hwx1_0 : ∀ i : grid1.Coords, EltTy.bits .f32 = 32 ∨ (Rect.block (s := S4096x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S4096.size a
  hwx1_2 : ∀ i : grid1.Coords, EltTy.bits .f32 = 32 ∨ (Rect.block (s := S4096) S2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S4096x4096.size a
  hwx1_3 : ∀ i : grid1.Coords, EltTy.bits .f32 = 32 ∨ (Rect.block (s := S4096x4096) S1024x2048.size (cc1_transform_3 i) (hinb1_3 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S4x1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x1x1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x1x1x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x1x1x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4x1x1x1x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x1x1x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4x8x8x512x64 : Shape := ⟨5, ![4, 8, 8, 512, 64]⟩
abbrev S4x8x8x64x512 : Shape := ⟨5, ![4, 8, 8, 64, 512]⟩
abbrev S4x8x8x1x1 : Shape := ⟨5, ![4, 8, 8, 1, 1]⟩
abbrev S8x8x1x1 : Shape := ⟨4, ![8, 8, 1, 1]⟩
abbrev S4096 : Shape := ⟨1, ![4096]⟩
abbrev S_ : Shape := ⟨0, ![]⟩
abbrev S4x8x8x512x512 : Shape := ⟨5, ![4, 8, 8, 512, 512]⟩
abbrev S4x8x8x512 : Shape := ⟨4, ![4, 8, 8, 512]⟩
abbrev S4x8x8x512x1 : Shape := ⟨5, ![4, 8, 8, 512, 1]⟩
abbrev S4x8x8x1x512 : Shape := ⟨5, ![4, 8, 8, 1, 512]⟩
abbrev S8x8x512x512 : Shape := ⟨4, ![8, 8, 512, 512]⟩
abbrev S8x512x8x512 : Shape := ⟨4, ![8, 512, 8, 512]⟩
abbrev S1x4096 : Shape := ⟨2, ![1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x8x8x512x64, .f32⟩
  | .hbm, ⟨2, _⟩ => ⟨S4x8x8x64x512, .f32⟩
  | .hbm, ⟨3, _⟩ => ⟨S4x8x8x1x1, .f32⟩
  | .hbm, ⟨4, _⟩ => ⟨S4x8x8x1x1, .f32⟩
  | .hbm, ⟨5, _⟩ => ⟨S4x8x8x1x1, .f32⟩
  | .hbm, ⟨6, _⟩ => ⟨S8x8x1x1, .f32⟩
  | .hbm, ⟨7, _⟩ => ⟨S4096, .f32⟩
  | .hbm, ⟨8, _⟩ => ⟨S_, .f32⟩
  | .hbm, ⟨9, _⟩ => ⟨S4x8x8x512x64, .f32⟩
  | .hbm, ⟨10, _⟩ => ⟨S4x8x8x512x64, .i1⟩
  | .hbm, ⟨11, _⟩ => ⟨S4x8x8x512x64, .f32⟩
  | .hbm, ⟨12, _⟩ => ⟨S_, .f32⟩
  | .hbm, ⟨13, _⟩ => ⟨S4x8x8x64x512, .f32⟩
  | .hbm, ⟨14, _⟩ => ⟨S4x8x8x64x512, .i1⟩
  | .hbm, ⟨15, _⟩ => ⟨S4x8x8x64x512, .f32⟩
  | .hbm, ⟨16, _⟩ => ⟨S4x8x8x512x512, .f32⟩
  | .hbm, ⟨17, _⟩ => ⟨S_, .f32⟩
  | .hbm, ⟨18, _⟩ => ⟨S4x8x8x512, .f32⟩
  | .hbm, ⟨19, _⟩ => ⟨S4x8x8x512x1, .f32⟩
  | .hbm, ⟨20, _⟩ => ⟨S_, .f32⟩
  | .hbm, ⟨21, _⟩ => ⟨S4x8x8x512, .f32⟩
  | .hbm, ⟨22, _⟩ => ⟨S4x8x8x1x512, .f32⟩
  | .hbm, ⟨23, _⟩ => ⟨S4x8x8x512x512, .f32⟩
  | .hbm, ⟨24, _⟩ => ⟨S4x8x8x512x512, .f32⟩
  | .hbm, ⟨25, _⟩ => ⟨S4x8x8x512x1, .f32⟩
  | .hbm, ⟨26, _⟩ => ⟨S4x8x8x512x1, .f32⟩
  | .hbm, ⟨27, _⟩ => ⟨S4x8x8x512x512, .f32⟩
  | .hbm, ⟨28, _⟩ => ⟨S4x8x8x512x512, .f32⟩
  | .hbm, ⟨29, _⟩ => ⟨S4x8x8x1x512, .f32⟩
  | .hbm, ⟨30, _⟩ => ⟨S4x8x8x1x512, .f32⟩
  | .hbm, ⟨31, _⟩ => ⟨S4x8x8x512x512, .f32⟩
  | .hbm, ⟨32, _⟩ => ⟨S4x8x8x512x512, .f32⟩
  | .hbm, ⟨33, _⟩ => ⟨S_, .f32⟩
  | .hbm, ⟨34, _⟩ => ⟨S8x8x512x512, .f32⟩
  | .hbm, ⟨35, _⟩ => ⟨S8x8x512x512, .f32⟩
  | .hbm, ⟨36, _⟩ => ⟨S8x8x512x512, .f32⟩
  | .hbm, ⟨37, _⟩ => ⟨S8x512x8x512, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S1x4096, .f32⟩
  | .hbm, ⟨42, _⟩ => ⟨S4096x4096, .f32⟩
  | .hbm, ⟨43, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S_S4x8x8x512x64 : S_.BroadcastsInDim S4x8x8x512x64 (![] : Fin 0 → Fin S4x8x8x512x64.rank)
  bcast_S_S4x8x8x64x512 : S_.BroadcastsInDim S4x8x8x64x512 (![] : Fin 0 → Fin S4x8x8x64x512.rank)
  reducesTo_S4x8x8x512x64_S4x8x8x512_d4 : S4x8x8x512x64.ReducesTo [4] S4x8x8x512
  h_S_ : 0 < S_.numel
  bcast_S4x8x8x512_S4x8x8x512x1_0_1_2_3 : S4x8x8x512.BroadcastsInDim S4x8x8x512x1 (![0, 1, 2, 3] : Fin 4 → Fin S4x8x8x512x1.rank)
  reducesTo_S4x8x8x64x512_S4x8x8x512_d3 : S4x8x8x64x512.ReducesTo [3] S4x8x8x512
  bcast_S4x8x8x512_S4x8x8x1x512_0_1_2_4 : S4x8x8x512.BroadcastsInDim S4x8x8x1x512 (![0, 1, 2, 4] : Fin 4 → Fin S4x8x8x1x512.rank)
  bcast_S4x8x8x1x1_S4x8x8x512x512_0_1_2_3_4 : S4x8x8x1x1.BroadcastsInDim S4x8x8x512x512 (![0, 1, 2, 3, 4] : Fin 5 → Fin S4x8x8x512x512.rank)
  bcast_S4x8x8x1x1_S4x8x8x512x1_0_1_2_3_4 : S4x8x8x1x1.BroadcastsInDim S4x8x8x512x1 (![0, 1, 2, 3, 4] : Fin 5 → Fin S4x8x8x512x1.rank)
  bcast_S4x8x8x512x1_S4x8x8x512x512_0_1_2_3_4 : S4x8x8x512x1.BroadcastsInDim S4x8x8x512x512 (![0, 1, 2, 3, 4] : Fin 5 → Fin S4x8x8x512x512.rank)
  bcast_S4x8x8x1x1_S4x8x8x1x512_0_1_2_3_4 : S4x8x8x1x1.BroadcastsInDim S4x8x8x1x512 (![0, 1, 2, 3, 4] : Fin 5 → Fin S4x8x8x1x512.rank)
  bcast_S4x8x8x1x512_S4x8x8x512x512_0_1_2_3_4 : S4x8x8x1x512.BroadcastsInDim S4x8x8x512x512 (![0, 1, 2, 3, 4] : Fin 5 → Fin S4x8x8x512x512.rank)
  reducesTo_S4x8x8x512x512_S8x8x512x512_d0 : S4x8x8x512x512.ReducesTo [0] S8x8x512x512
  bcast_S8x8x1x1_S8x8x512x512_0_1_2_3 : S8x8x1x1.BroadcastsInDim S8x8x512x512 (![0, 1, 2, 3] : Fin 4 → Fin S8x8x512x512.rank)
  transposes_S8x8x512x512_S8x512x8x512_0_2_1_3 : S8x8x512x512.Transposes [0, 2, 1, 3] S8x512x8x512
  shapeCasts_S8x512x8x512_S4096x4096 : S8x512x8x512.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4x8x8x512x64_S4x8x8x64x512_S4x8x8x512x512_4_3_3_4_012_012_wf : DotDims.WF S4x8x8x512x64 S4x8x8x64x512 S4x8x8x512x512 [4] [3] [3] [4] [0, 1, 2] [0, 1, 2]
  dot_S4096x4096_S4096x4096_S4096x4096_1_0_0_1_n_n_wf : DotDims.WF S4096x4096 S4096x4096 S4096x4096 [1] [0] [0] [1] [] []

variable [Facts₀]

def dot_S4x8x8x512x64_S4x8x8x64x512_S4x8x8x512x512_4_3_3_4_012_012 : DotDims S4x8x8x512x64 S4x8x8x64x512 S4x8x8x512x512 where
  lhsContracting := [4]
  rhsContracting := [3]
  lhsNonContracting := [3]
  rhsNonContracting := [4]
  lhsBatch := [0, 1, 2]
  rhsBatch := [0, 1, 2]
  wf := dot_S4x8x8x512x64_S4x8x8x64x512_S4x8x8x512x512_4_3_3_4_012_012_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.R0.lean ====
/-
  Region 0 (the weight-building kernel) on one grid point: what the body leaves in its output block as a
  function of its six input blocks, the body's triple, and the per-point obligation of the pipeline.

  The grid has 8 x 8 points (r, c). At a point the body reads, for each of the four bit planes k, the block
  Y[k, r, c, :, :] (512 x 64), Z[k, r, c, :, :] (64 x 512) and the scalars a, b, c[k, r, c]; it reads d[r, c];
  and it stores ONE 512 x 512 block: acc_4 + d, where acc_0 = 0 and
  acc_{k+1} = ((acc_k + a_k * (Yb_k Zb_k)) + b_k * rowsum(Yb_k)) + c_k * colsum(Zb_k).
-/
import proofs.«118693_j25589415149863_2_alg».proof.Proof.Gen.Kernel.Launch
import proofs.«118693_j25589415149863_2_alg».proof.Proof.Gen.Kernel.Skeleton
import proofs.«118693_j25589415149863_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point (fetched there or not). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through -/

abbrev rY0 : Rect S4x1x1x512x64 := Rect.unit (s := S4x1x1x512x64) ![0, 0, 0, 0, 0] S1x1x1x512x64.size inb_S4x1x1x512x64_S1x1x1x512x64_0_0_0_0_0
abbrev rY1 : Rect S4x1x1x512x64 := Rect.unit (s := S4x1x1x512x64) ![1, 0, 0, 0, 0] S1x1x1x512x64.size inb_S4x1x1x512x64_S1x1x1x512x64_1_0_0_0_0
abbrev rY2 : Rect S4x1x1x512x64 := Rect.unit (s := S4x1x1x512x64) ![2, 0, 0, 0, 0] S1x1x1x512x64.size inb_S4x1x1x512x64_S1x1x1x512x64_2_0_0_0_0
abbrev rY3 : Rect S4x1x1x512x64 := Rect.unit (s := S4x1x1x512x64) ![3, 0, 0, 0, 0] S1x1x1x512x64.size inb_S4x1x1x512x64_S1x1x1x512x64_3_0_0_0_0
abbrev rZ0 : Rect S4x1x1x64x512 := Rect.unit (s := S4x1x1x64x512) ![0, 0, 0, 0, 0] S1x1x1x64x512.size inb_S4x1x1x64x512_S1x1x1x64x512_0_0_0_0_0
abbrev rZ1 : Rect S4x1x1x64x512 := Rect.unit (s := S4x1x1x64x512) ![1, 0, 0, 0, 0] S1x1x1x64x512.size inb_S4x1x1x64x512_S1x1x1x64x512_1_0_0_0_0
abbrev rZ2 : Rect S4x1x1x64x512 := Rect.unit (s := S4x1x1x64x512) ![2, 0, 0, 0, 0] S1x1x1x64x512.size inb_S4x1x1x64x512_S1x1x1x64x512_2_0_0_0_0
abbrev rZ3 : Rect S4x1x1x64x512 := Rect.unit (s := S4x1x1x64x512) ![3, 0, 0, 0, 0] S1x1x1x64x512.size inb_S4x1x1x64x512_S1x1x1x64x512_3_0_0_0_0
abbrev rS0 : Rect S4x1x1x1x1 := Rect.unit (s := S4x1x1x1x1) ![0, 0, 0, 0, 0] S1x1x1x1x1.size inb_S4x1x1x1x1_S1x1x1x1x1_0_0_0_0_0
abbrev rS1 : Rect S4x1x1x1x1 := Rect.unit (s := S4x1x1x1x1) ![1, 0, 0, 0, 0] S1x1x1x1x1.size inb_S4x1x1x1x1_S1x1x1x1x1_1_0_0_0_0
abbrev rS2 : Rect S4x1x1x1x1 := Rect.unit (s := S4x1x1x1x1) ![2, 0, 0, 0, 0] S1x1x1x1x1.size inb_S4x1x1x1x1_S1x1x1x1x1_2_0_0_0_0
abbrev rS3 : Rect S4x1x1x1x1 := Rect.unit (s := S4x1x1x1x1) ![3, 0, 0, 0, 0] S1x1x1x1x1.size inb_S4x1x1x1x1_S1x1x1x1x1_3_0_0_0_0
abbrev rD : Rect S1x1x1x1 := Rect.unit (s := S1x1x1x1) ![0, 0, 0, 0] S1x1x1x1.size inb_S1x1x1x1_S1x1x1x1_0_0_0_0
abbrev rO : Rect S512x512 := Rect.unit (s := S512x512) ![0, 0] S512x512.size inb_S512x512_S512x512_0_0

end

/-! ## What the body computes -/

/-- The block the body stores, from its six input blocks: the four planes accumulated in order, then the offset. -/
def body0 (x0 : Vec F S4x1x1x512x64 .f32) (x1 : Vec F S4x1x1x64x512 .f32) (x2 x3 x4 : Vec F S4x1x1x1x1 .f32) (x5 : Vec F S1x1x1x1 .f32) :=
  let acc1 := k0_pay10 (k0_pay2 (F := F)) (k0_pay5 (View.ld x0 rY0) (View.ld x1 rZ0)) (k0_pay6 (View.ld x0 rY0)) (k0_pay7 (View.ld x1 rZ0))
    (k0_pay8 (View.ld x2 rS0)) (k0_pay9 (View.ld x3 rS0)) (View.ld x4 rS0)
  let acc2 := k0_pay17 acc1 (k0_pay13 (View.ld x0 rY1) (View.ld x1 rZ1)) (k0_pay14 (View.ld x0 rY1)) (k0_pay15 (View.ld x1 rZ1))
    (k0_pay16 (View.ld x2 rS1)) (View.ld x3 rS1) (View.ld x4 rS1)
  let acc3 := k0_pay23 acc2 (k0_pay20 (View.ld x0 rY2) (View.ld x1 rZ2)) (k0_pay21 (View.ld x0 rY2)) (k0_pay22 (View.ld x1 rZ2))
    (View.ld x2 rS2) (View.ld x3 rS2) (View.ld x4 rS2)
  k0_pay1 acc3 (k0_pay25 (View.ld x1 rZ3)) (k0_pay26 (View.ld x0 rY3) (View.ld x1 rZ3)) (k0_pay27 (View.ld x0 rY3))
    (View.ld x2 rS3) (View.ld x3 rS3) (View.ld x4 rS3) (View.ld x5 rD)

/-- The output window's staging buffer after the body: its one store, which covers the block. -/
def out0_6 (x0 : Vec F S4x1x1x512x64 .f32) (x1 : Vec F S4x1x1x64x512 .f32) (x2 x3 x4 : Vec F S4x1x1x1x1 .f32) (x5 : Vec F S1x1x1x1 .f32) : Vec F S512x512 .bf16 :=
  View.canon [⟨rO, body0 x0 x1 x2 x3 x4 x5⟩]

theorem cover0_6 (p0 : Vec F S512x512 .bf16) (y : S512x512.Idx) :
    ∃ pc ∈ ([⟨rO, p0⟩] : List (View.Piece (Elt F) S512x512 .bf16)), y ∈ pc.1.set :=
  View.cover_of_tiled [⟨rO, p0⟩] S512x512.size (by rfl) y

/-! ## The body's triple -/

set_option maxHeartbeats 4000000 in
/-- On whole staging memrefs, the inputs' at contents x0 … x5 and the output's at anything, the body runs and leaves
    the inputs' as they were and the output's at out0_6 of the inputs'. -/
theorem sound_kernel0 (c : Dev nD) (E : Set ℕ) (i : grid0.Coords)
    (arg2 : Memref sig .tc .vmem S4x1x1x512x64 .f32) (harg2 : arg2.IsWhole) (arg3 : Memref sig .tc .vmem S4x1x1x64x512 .f32) (harg3 : arg3.IsWhole)
    (arg4 : Memref sig .tc .vmem S4x1x1x1x1 .f32) (harg4 : arg4.IsWhole) (arg5 : Memref sig .tc .vmem S4x1x1x1x1 .f32) (harg5 : arg5.IsWhole)
    (arg6 : Memref sig .tc .vmem S4x1x1x1x1 .f32) (harg6 : arg6.IsWhole) (arg7 : Memref sig .tc .vmem S1x1x1x1 .f32) (harg7 : arg7.IsWhole)
    (arg8 : Memref sig .tc .vmem S512x512 .bf16) (harg8 : arg8.IsWhole)
    (x0 : Vec F S4x1x1x512x64 .f32) (x1 : Vec F S4x1x1x64x512 .f32) (x2 x3 x4 : Vec F S4x1x1x1x1 .f32) (x5 : Vec F S1x1x1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__w_kernel i arg2 harg2 arg3 harg3 arg4 harg4 arg5 harg5 arg6 harg6 arg7 harg7 arg8 harg8) K := by
  simp only [cc0__w_kernel_eq_skeleton]; unfold cc0__w_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

section
variable (V : (c : Dev nD) → (b : Ref sig .tc) → Buf (Elt F) ((c : Thread nD τ).loc b))

/-! ## The pipeline's proof data -/

/-- After the body at point t each input's buffer holds its block and the output's holds out0_6 of the input blocks;
    the invariant is the scoped rest and the generator register, untouched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end

end Cert.Kernel.Fr

end
-- ==== Proof.K.R1Runs.lean ====
/-
  Region 1 (the matrix product with bias) on one grid point. The grid is 4 x 2 x 8, the last axis k running over
  the eight 512-wide slices of the contracted axis. The kernel keeps a 1024 x 2048 accumulator in a scratch
  buffer across the eight points of one (i, j): at k = 0 it clears it, at every k it adds X_blk · W_blk^T to it,
  and at k = 7 it stores accumulator + bias into the output block. Three control cases follow: first (k = 0),
  middle (0 < k < 7), last (k = 7); here is the body's triple in each.
-/
import proofs.«118693_j25589415149863_2_alg».proof.Proof.Gen.Kernel.Launch
import proofs.«118693_j25589415149863_2_alg».proof.Proof.Gen.Kernel.Skeleton
import proofs.«118693_j25589415149863_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through (every one the whole buffer) -/

abbrev rX : Rect S1024x512 := Rect.unit (s := S1024x512) ![0, 0] S1024x512.size inb_S1024x512_S1024x512_0_0
abbrev rW : Rect S2048x512 := Rect.unit (s := S2048x512) ![0, 0] S2048x512.size inb_S2048x512_S2048x512_0_0
abbrev rB : Rect S2048 := Rect.unit (s := S2048) ![0] S2048.size inb_S2048_S2048_0
abbrev rA : Rect S1024x2048 := Rect.unit (s := S1024x2048) ![0, 0] S1024x2048.size inb_S1024x2048_S1024x2048_0_0

/-! ## The branch conditions -/

/-- The first conditional's condition (k = 0), as the skeleton's scalar chain over the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (k = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## What the body computes -/

/-- One accumulation step: the accumulator a plus the product of the point's X block and W block. -/
def accStep (x0 : Vec F S1024x512 .f32) (x1 : Vec F S2048x512 .bf16) (a : Vec F S1024x2048 .f32) :=
  k1_pay2 (View.ld x0 rX) (View.ld x1 rW) a

/-- The epilogue: accumulator plus the bias row broadcast over the rows. -/
def outStep (a : Vec F S1024x2048 .f32) (x2 : Vec F S2048 .f32) := k1_pay3 a (View.ld x2 rB)

theorem hzA : (![0, 0] : Fin 2 → Nat) = fun _ => 0 := funext fun a => by fin_cases a <;> rfl

theorem memA (y : S1024x2048.Idx) : y ∈ rA.set := View.mem_set_unit_zero hzA _ y

/-- One store through the whole-buffer rectangle leaves its payload: -/
theorem canon1 (w : S1024x2048.Idx → Elt F .f32) : View.canon [(⟨rA, w⟩ : View.Piece (Elt F) S1024x2048 .f32)] = w :=
  View.canon_unit_zero hzA _ w

theorem cover1 (w : S1024x2048.Idx → Elt F .f32) (y : S1024x2048.Idx) :
    ∃ p ∈ [(⟨rA, w⟩ : View.Piece (Elt F) S1024x2048 .f32)], y ∈ p.1.set :=
  ⟨_, List.mem_singleton_self _, memA y⟩

theorem read_one (v : View sig .tc .vmem S1024x2048 .f32) (f : v.ty.Contents (Elt F)) (w : S1024x2048.Idx → Elt F .f32) :
    v.read (Elt F) (v.writes (Elt F) f [(⟨rA, w⟩ : View.Piece (Elt F) S1024x2048 .f32)]) = w :=
  (View.read_writes_eq_canon v f _ (cover1 w)).trans (canon1 w)

/-- the later of two such stores leaves its payload: -/
theorem canon2 (w1 w0 : S1024x2048.Idx → Elt F .f32) :
    View.canon [(⟨rA, w1⟩ : View.Piece (Elt F) S1024x2048 .f32), ⟨rA, w0⟩] = w1 :=
  View.canon_cons_unit_zero hzA _ w1 _

theorem cover2 (w1 w0 : S1024x2048.Idx → Elt F .f32) (y : S1024x2048.Idx) :
    ∃ p ∈ [(⟨rA, w1⟩ : View.Piece (Elt F) S1024x2048 .f32), ⟨rA, w0⟩], y ∈ p.1.set :=
  ⟨_, List.mem_cons_self, memA y⟩

theorem read_two (v : View sig .tc .vmem S1024x2048 .f32) (f : v.ty.Contents (Elt F)) (w1 w0 : S1024x2048.Idx → Elt F .f32) :
    v.read (Elt F) (v.writes (Elt F) f [(⟨rA, w1⟩ : View.Piece (Elt F) S1024x2048 .f32), ⟨rA, w0⟩]) = w1 :=
  (View.read_writes_eq_canon v f _ (cover2 w1 w0)).trans (canon2 w1 w0)

/-- and a load through it after one such store reads the payload. -/
theorem readCov_one (v : View sig .tc .vmem S1024x2048 .f32) (w : S1024x2048.Idx → Elt F .f32) :
    v.readCov [(⟨rA, w⟩ : View.Piece (Elt F) S1024x2048 .f32)] rA.toLoadRect = w :=
  View.readCov_unit_zero v hzA _ w

/-! ## The body's triple, case by case -/

set_option maxHeartbeats 4000000 in
/-- First point of a row of eight (k = 0, k ≠ 7): the scratch, whatever it held, ends at one step from zero; the output
    buffer is not touched. -/
theorem sound_kernel1_A (c : Dev nD) (E : Set ℕ) (i : grid1.Coords) (hc0 : cond1_0 i) (hc1 : ¬cond1_1 i)
    (arg3 : Memref sig .tc .vmem S1024x512 .f32) (harg3 : arg3.IsWhole) (arg4 : Memref sig .tc .vmem S2048x512 .bf16) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (x0 : Vec F S1024x512 .f32) (x1 : Vec F S2048x512 .bf16) (x2 : Vec F S2048 .f32) (xo : Vec F S1024x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (accStep x0 x1 (k1_pay1 (F := F)))) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  exact (read_two arg7.view f4 _ _).trans (by unfold accStep; rw [readCov_one]; rfl)

set_option maxHeartbeats 4000000 in
/-- A middle point (k ≠ 0, k ≠ 7): the scratch goes from xs to one step further; the output buffer is not touched. -/
theorem sound_kernel1_B (c : Dev nD) (E : Set ℕ) (i : grid1.Coords) (hc0 : ¬cond1_0 i) (hc1 : ¬cond1_1 i)
    (arg3 : Memref sig .tc .vmem S1024x512 .f32) (harg3 : arg3.IsWhole) (arg4 : Memref sig .tc .vmem S2048x512 .bf16) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (x0 : Vec F S1024x512 .f32) (x1 : Vec F S2048x512 .bf16) (x2 : Vec F S2048 .f32) (xo xs : Vec F S1024x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (accStep x0 x1 (View.ld xs rA))) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (read_one arg7.view f4 _).trans rfl

set_option maxHeartbeats 4000000 in
/-- The last point of a row of eight (k = 7): the scratch goes one step further and the output buffer, whatever it held,
    ends at that plus the bias. -/
theorem sound_kernel1_C (c : Dev nD) (E : Set ℕ) (i : grid1.Coords) (hc0 : ¬cond1_0 i) (hc1 : cond1_1 i)
    (arg3 : Memref sig .tc .vmem S1024x512 .f32) (harg3 : arg3.IsWhole) (arg4 : Memref sig .tc .vmem S2048x512 .bf16) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (x0 : Vec F S1024x512 .f32) (x1 : Vec F S2048x512 .bf16) (x2 : Vec F S2048 .f32) (xs : Vec F S1024x2048 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (outStep (accStep x0 x1 (View.ld xs rA)) x2)
            ∗ owns (c : Thread nD τ) arg7 fullShare (accStep x0 x1 (View.ld xs rA))) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    exact (read_one arg6.view f3 _).trans (by unfold outStep accStep; rw [readCov_one]; rfl)
  iexists _; isplitr
  swap; · iexact H4
  ipureintro
  sl_unfold_run_names
  exact (read_one arg7.view f4 _).trans rfl

end Cert.Kernel.Fr

end
-- ==== Proof.K.R1.lean ====
/-
  Region 1 over its whole grid: what the accumulator holds after each point, the pipeline's proof data, and the
  per-point obligation. After point t of a row of eight the scratch holds the partial product over the slices
  0 … (t mod 8) of the contracted axis: one step from zero at t ≡ 0 (mod 8), one step from the previous point's value
  otherwise. The output window is written only at t ≡ 7 (mod 8); elsewhere its buffer is handed back untouched.
-/
import proofs.«118693_j25589415149863_2_alg».proof.Proof.K.R1Runs
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point of a row of eight the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The scratch operand: a whole scoped buffer of the kernel's own. -/
abbrev scM : Memref sig .tc .vmem S1024x2048 .f32 := Memref.whole cc1_scratch0

/-- The scoped buffers region 1 never names (region 0's staging buffers), each whole at some contents. -/
abbrev Oth (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class invariant splits into the scratch at some contents, the other scoped buffers, and the generator register. -/
theorem PhiA1_split (c : Dev nD) :
    (Pipeline.ΦA spec1 c : sProp 𝕄) ⊢ iprop((∃ d, owns (c : Thread nD τ) scM fullShare d) ∗ Oth (F := F) c ∗ (∃ r, prngReg c r)) := by
  unfold Pipeline.ΦA; rw [scopedRest1_eq]; simp only [scM, owns_whole]
  iintro ⟨⟨G0, G1, G2, G3, G4, G5, G6, G7, G8, G9, G10, G11, G12, G13, HS⟩, Hg⟩
  isplitl [HS]; · iexact HS
  isplitl [G0 G1 G2 G3 G4 G5 G6 G7 G8 G9 G10 G11 G12 G13]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    iexact G13
  iexact Hg

theorem PhiA1_join (c : Dev nD) :
    iprop((∃ d, owns (c : Thread nD τ) scM fullShare d) ∗ Oth (F := F) c ∗ (∃ r, prngReg c r)) ⊢ (Pipeline.ΦA spec1 c : sProp 𝕄) := by
  unfold Pipeline.ΦA; rw [scopedRest1_eq]; simp only [scM, owns_whole]
  iintro ⟨HS, ⟨G0, G1, G2, G3, G4, G5, G6, G7, G8, G9, G10, G11, G12, G13⟩, Hg⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    iexact HS
  iexact Hg

section
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the scratch holds after each point -/

/-- The accumulator after position n: one step from zero at the first point of a row of eight, one step from the previous
    position's value elsewhere. -/
def accAt (c : Dev nD) : (n : ℕ) → n < cfg1.N → Vec F S1024x2048 .f32
  | 0, hn => accStep (iblk1 V c 0 ⟨0, hn⟩) (iblk1 V c 1 ⟨0, hn⟩) (k1_pay1 (F := F))
  | n + 1, hn =>
    if (n + 1) % 8 = 0 then accStep (iblk1 V c 0 ⟨n + 1, hn⟩) (iblk1 V c 1 ⟨n + 1, hn⟩) (k1_pay1 (F := F))
    else accStep (iblk1 V c 0 ⟨n + 1, hn⟩) (iblk1 V c 1 ⟨n + 1, hn⟩) (View.ld (accAt c n (Nat.lt_of_succ_lt hn)) rA)

theorem accAt_first (c : Dev nD) (t : Fin cfg1.N) (h0 : t.val % 8 = 0) :
    accAt V c t.val t.isLt = accStep (iblk1 V c 0 t) (iblk1 V c 1 t) (k1_pay1 (F := F)) := by
  obtain ⟨n, hn⟩ := t
  cases n with
  | zero => rfl
  | succ n => exact if_pos h0

theorem accAt_next (c : Dev nD) (t : Fin cfg1.N) (h0 : ¬t.val % 8 = 0) :
    accAt V c t.val t.isLt = accStep (iblk1 V c 0 t) (iblk1 V c 1 t)
      (View.ld (accAt V c (t.val - 1) (Nat.lt_of_le_of_lt (Nat.sub_le _ _) t.isLt)) rA) := by
  obtain ⟨n, hn⟩ := t
  cases n with
  | zero => exact absurd (Nat.zero_mod _) h0
  | succ n => exact if_neg h0

/-- The invariant before position n: the class's before the first point; afterwards the scratch at what the point before
    left, the other scoped buffers at anything, the generator register at some state. -/
def PhiS (c : Dev nD) : (n : ℕ) → n ≤ cfg1.N → sProp 𝕄
  | 0, _ => Pipeline.ΦA spec1 c
  | n + 1, hn => iprop(owns (c : Thread nD τ) scM fullShare (accAt V c n hn) ∗ Oth (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (accAt V c n hn) ∗ Oth (F := F) c ∗ (∃ r, prngReg c r)) := rfl

theorem PhiS_pos (c : Dev nD) (n : ℕ) (h : n ≤ cfg1.N) (hz : n ≠ 0) :
    PhiS V c n h = iprop(owns (c : Thread nD τ) scM fullShare (accAt V c (n - 1) (by omega)) ∗ Oth (F := F) c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outStep (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outStep (accAt V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the point's position in its row of eight selects the case; the invariant hands the body the
    scratch (at anything before the very first point, at the previous point's value afterwards) and takes it back at this
    point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · have h7 : ¬t.val % 8 = 7 := by omega
    have hc0 := (hcond1_0 t).mpr h0
    have hc1 : ¬cond1_1 (grid1.coords t) := fun h => h7 ((hcond1_1 t).mp h)
    rw [Dat.leavesExact_idle (dat1 V c) 3 t (idleAt1_3 t hc1) (noFlush1_3 t hc1)]
    rw [accAt_first V c t h0]
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨HS, ⟨G0, G1, G2, G3, G4, G5, G6, G7, G8, G9, G10, G11, G12, G13⟩, Hg⟩
      iapply (sound_kernel1_A c Set.univ (grid1.coords t) hc0 hc1 _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS G0 G1 G2 G3 G4 G5 G6 G7 G8 G9 G10 G11 G12 G13 Hg]
      · isplitl [HS]; · iexact HS
        isplitl [G0 G1 G2 G3 G4 G5 G6 G7 G8 G9 G10 G11 G12 G13]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          iexact G13
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, ⟨G0, G1, G2, G3, G4, G5, G6, G7, G8, G9, G10, G11, G12, G13⟩, Hg⟩, Ho, ⟨%d0, H0⟩, ⟨%d1, H1⟩, ⟨%d2, H2⟩, ⟨%d3, H3⟩⟩
      iapply (sound_kernel1_A c Set.univ (grid1.coords t) hc0 hc1 _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS G0 G1 G2 G3 G4 G5 G6 G7 G8 G9 G10 G11 G12 G13 Hg]
      · isplitl [HS]; · iexact HS
        isplitl [G0 G1 G2 G3 G4 G5 G6 G7 G8 G9 G10 G11 G12 G13]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          iexact G13
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    rw [accAt_next V c t h0]
    rw [PhiS_castSucc V c t, PhiS_pos V c _ _ hz]
    by_cases h7 : t.val % 8 = 7
    · have hc1 := (hcond1_1 t).mpr h7
      rw [show (dat1 V c).leavesExact 3 t = owns (c : Thread nD τ) (st1_3 t) fullShare ((dat1 V c).after 3 t) from by
        unfold Dat.leavesExact; rw [liveAt1_3 t hc1], after1_3, accAt_next V c t h0]
      iintro ⟨⟨HS, ⟨G0, G1, G2, G3, G4, G5, G6, G7, G8, G9, G10, G11, G12, G13⟩, Hg⟩, Ho, ⟨%d0, H0⟩, ⟨%d1, H1⟩, ⟨%d2, H2⟩, ⟨%d3, H3⟩⟩
      iapply (sound_kernel1_C c Set.univ (grid1.coords t) hc0 hc1 _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS G0 G1 G2 G3 G4 G5 G6 G7 G8 G9 G10 G11 G12 G13 Hg]
      · isplitl [HS]; · iexact HS
        isplitl [G0 G1 G2 G3 G4 G5 G6 G7 G8 G9 G10 G11 G12 G13]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          iexact G13
        iexact Hg
      isplitl [Ho]; · iexact Ho
      isplitl [H0]; · iexact H0
      isplitl [H1]; · iexact H1
      isplitl [H2]; · iexact H2
      iexact H3
    · have hc1 : ¬cond1_1 (grid1.coords t) := fun h => h7 ((hcond1_1 t).mp h)
      rw [Dat.leavesExact_idle (dat1 V c) 3 t (idleAt1_3 t hc1) (noFlush1_3 t hc1)]
      iintro ⟨⟨HS, ⟨G0, G1, G2, G3, G4, G5, G6, G7, G8, G9, G10, G11, G12, G13⟩, Hg⟩, Ho, ⟨%d0, H0⟩, ⟨%d1, H1⟩, ⟨%d2, H2⟩, ⟨%d3, H3⟩⟩
      iapply (sound_kernel1_B c Set.univ (grid1.coords t) hc0 hc1 _ _ _ _ _ _ _ _ _ _ (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS G0 G1 G2 G3 G4 G5 G6 G7 G8 G9 G10 G11 G12 G13 Hg]
      · isplitl [HS]; · iexact HS
        isplitl [G0 G1 G2 G3 G4 G5 G6 G7 G8 G9 G10 G11 G12 G13]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          iexact G13
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- The scratch's contents may be forgotten: the invariant after any point gives the class's back. -/
theorem forget_acc (c : Dev nD) (x : Vec F S1024x2048 .f32) :
    iprop(owns (c : Thread nD τ) scM fullShare x ∗ Oth (F := F) c ∗ (∃ r, prngReg c r)) ⊢ (Pipeline.ΦA spec1 c : sProp 𝕄) := by
  have h : iprop(owns (c : Thread nD τ) scM fullShare x ∗ Oth (F := F) c ∗ (∃ r, prngReg c r))
      ⊢ (iprop((∃ d, owns (c : Thread nD τ) scM fullShare d) ∗ Oth (F := F) c ∗ (∃ r, prngReg c r)) : sProp 𝕄) := by
    iintro ⟨HS, HO, Hg⟩
    isplitl [HS]; · iexists _; iexact HS
    isplitl [HO]; · iexact HO
    iexact Hg
  exact h.trans (PhiA1_join (F := F) c)

/-- After the last point the invariant gives the class's back. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  exact forget_acc c _

end

end Cert.Kernel.Fr

end
-- ==== Proof.K.Run.lean ====
/-
  The whole program: the two regions one after the other, from the launch to the return. Between the regions a core's
  unscoped buffers hold: at launch the arguments; after region 0 also the weight matrix (bf16, 4096 x 4096) in the
  intermediate buffer; after region 1 also the result. Every argument array reads back as launched, and the result
  buffer holds what region 1's write-backs leave.
-/
import proofs.«118693_j25589415149863_2_alg».proof.Proof.K.R0
import proofs.«118693_j25589415149863_2_alg».proof.Proof.K.R1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => m ((c : Dev nD), b)
abbrev V0 : (c : Dev nD) → (b : Ref sig .tc) → Buf (Elt F) ((c : Thread nD τ).loc b) := fun c b => W0 m c b
/-- After region 0 (region 1's entry): its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1 (the return). -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched: region 0 reads arguments 1 to 6 and region 1 arguments 0 and 7, through input windows -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (V1 m) c).arrAt_in 0 rfl _).trans (A_eq1 (V1 m) c 0))
    _ = W0 m c (Proc.devRef .tc main_arg0) := W1_of_ne m c main_arg0 (by decide)
    _ = m ((c : Thread nD τ).loc main_arg0) := rfl

theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 0).trans (((dat0 (V0 m) c).arrAt_in 0 rfl _).trans (A_eq0 (V0 m) c 0))
    _ = m ((c : Thread nD τ).loc main_arg1) := rfl

theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((dat0 (V0 m) c).arrAt_in 1 rfl _).trans (A_eq0 (V0 m) c 1))
    _ = m ((c : Thread nD τ).loc main_arg2) := rfl

theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 2).trans (((dat0 (V0 m) c).arrAt_in 2 rfl _).trans (A_eq0 (V0 m) c 2))
    _ = m ((c : Thread nD τ).loc main_arg3) := rfl

theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := (W1_arr m c 3).trans (((dat0 (V0 m) c).arrAt_in 3 rfl _).trans (A_eq0 (V0 m) c 3))
    _ = m ((c : Thread nD τ).loc main_arg4) := rfl

theorem W2_main_arg5 (c : Dev nD) : W2 m c (Proc.devRef .tc main_arg5) = m ((c : Thread nD τ).loc main_arg5) :=
  calc W2 m c (Proc.devRef .tc main_arg5)
    _ = W1 m c (Proc.devRef .tc main_arg5) := W2_of_ne m c main_arg5 (by decide)
    _ = W0 m c (Proc.devRef .tc main_arg5) := (W1_arr m c 4).trans (((dat0 (V0 m) c).arrAt_in 4 rfl _).trans (A_eq0 (V0 m) c 4))
    _ = m ((c : Thread nD τ).loc main_arg5) := rfl

theorem W2_main_arg6 (c : Dev nD) : W2 m c (Proc.devRef .tc main_arg6) = m ((c : Thread nD τ).loc main_arg6) :=
  calc W2 m c (Proc.devRef .tc main_arg6)
    _ = W1 m c (Proc.devRef .tc main_arg6) := W2_of_ne m c main_arg6 (by decide)
    _ = W0 m c (Proc.devRef .tc main_arg6) := (W1_arr m c 5).trans (((dat0 (V0 m) c).arrAt_in 5 rfl _).trans (A_eq0 (V0 m) c 5))
    _ = m ((c : Thread nD τ).loc main_arg6) := rfl

theorem W2_main_arg7 (c : Dev nD) : W2 m c (Proc.devRef .tc main_arg7) = m ((c : Thread nD τ).loc main_arg7) :=
  calc W2 m c (Proc.devRef .tc main_arg7)
    _ = W1 m c (Proc.devRef .tc main_arg7) := (W2_arr m c 2).trans (((dat1 (V1 m) c).arrAt_in 2 rfl _).trans (A_eq1 (V1 m) c 2))
    _ = W0 m c (Proc.devRef .tc main_arg7) := W1_of_ne m c main_arg7 (by decide)
    _ = m ((c : Thread nD τ).loc main_arg7) := rfl

/-- The result buffer ends at what region 1's write-backs leave in it. -/
theorem W2_main_v1 (c : Dev nD) : W2 m c (Proc.devRef .tc main_v1) = (dat1 (V1 m) c).arrAt 3 cfg1.N := W2_arr m c 3

/-- The intermediate buffer holds, when region 1 is entered, what region 0's write-backs leave in it. -/
theorem V1_main_v0 (c : Dev nD) : V1 m c main_v0 = (dat0 (V0 m) c).arrAt 6 cfg0.N := W1_arr m c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers through both regions: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    rw [Pipeline.ownSems0_none]
    exact (hout1 (V1 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- From any memory with zero counters every weakly fair execution terminates, nothing faulting, and every unscoped buffer
    of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c),
     (h c _ (mem_uc main_arg5 (by decide))).trans (W2_main_arg5 m c),
     (h c _ (mem_uc main_arg6 (by decide))).trans (W2_main_arg6 m c),
     (h c _ (mem_uc main_arg7 (by decide))).trans (W2_main_arg7 m c)⟩) (run_main m ρ)

end Cert.Kernel.Fr

end
-- ==== Proof.KI.R0.lean ====
/-
  Region 0 (the weight-building kernel) on one grid point: what the body leaves in its output block as a
  function of its six input blocks, the body's triple, and the per-point obligation of the pipeline.

  The grid has 8 x 8 points (r, c). At a point the body reads, for each of the four bit planes k, the block
  Y[k, r, c, :, :] (512 x 64), Z[k, r, c, :, :] (64 x 512) and the scalars a, b, c[k, r, c]; it reads d[r, c];
  and it stores ONE 512 x 512 block: acc_4 + d, where acc_0 = 0 and
  acc_{k+1} = ((acc_k + a_k * (Yb_k Zb_k)) + b_k * rowsum(Yb_k)) + c_k * colsum(Zb_k).
-/
import proofs.«118693_j25589415149863_2_alg».proof.Proof.Gen.KernelIdeal.Launch
import proofs.«118693_j25589415149863_2_alg».proof.Proof.Gen.KernelIdeal.Skeleton
import proofs.«118693_j25589415149863_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point (fetched there or not). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through -/

abbrev rY0 : Rect S4x1x1x512x64 := Rect.unit (s := S4x1x1x512x64) ![0, 0, 0, 0, 0] S1x1x1x512x64.size inb_S4x1x1x512x64_S1x1x1x512x64_0_0_0_0_0
abbrev rY1 : Rect S4x1x1x512x64 := Rect.unit (s := S4x1x1x512x64) ![1, 0, 0, 0, 0] S1x1x1x512x64.size inb_S4x1x1x512x64_S1x1x1x512x64_1_0_0_0_0
abbrev rY2 : Rect S4x1x1x512x64 := Rect.unit (s := S4x1x1x512x64) ![2, 0, 0, 0, 0] S1x1x1x512x64.size inb_S4x1x1x512x64_S1x1x1x512x64_2_0_0_0_0
abbrev rY3 : Rect S4x1x1x512x64 := Rect.unit (s := S4x1x1x512x64) ![3, 0, 0, 0, 0] S1x1x1x512x64.size inb_S4x1x1x512x64_S1x1x1x512x64_3_0_0_0_0
abbrev rZ0 : Rect S4x1x1x64x512 := Rect.unit (s := S4x1x1x64x512) ![0, 0, 0, 0, 0] S1x1x1x64x512.size inb_S4x1x1x64x512_S1x1x1x64x512_0_0_0_0_0
abbrev rZ1 : Rect S4x1x1x64x512 := Rect.unit (s := S4x1x1x64x512) ![1, 0, 0, 0, 0] S1x1x1x64x512.size inb_S4x1x1x64x512_S1x1x1x64x512_1_0_0_0_0
abbrev rZ2 : Rect S4x1x1x64x512 := Rect.unit (s := S4x1x1x64x512) ![2, 0, 0, 0, 0] S1x1x1x64x512.size inb_S4x1x1x64x512_S1x1x1x64x512_2_0_0_0_0
abbrev rZ3 : Rect S4x1x1x64x512 := Rect.unit (s := S4x1x1x64x512) ![3, 0, 0, 0, 0] S1x1x1x64x512.size inb_S4x1x1x64x512_S1x1x1x64x512_3_0_0_0_0
abbrev rS0 : Rect S4x1x1x1x1 := Rect.unit (s := S4x1x1x1x1) ![0, 0, 0, 0, 0] S1x1x1x1x1.size inb_S4x1x1x1x1_S1x1x1x1x1_0_0_0_0_0
abbrev rS1 : Rect S4x1x1x1x1 := Rect.unit (s := S4x1x1x1x1) ![1, 0, 0, 0, 0] S1x1x1x1x1.size inb_S4x1x1x1x1_S1x1x1x1x1_1_0_0_0_0
abbrev rS2 : Rect S4x1x1x1x1 := Rect.unit (s := S4x1x1x1x1) ![2, 0, 0, 0, 0] S1x1x1x1x1.size inb_S4x1x1x1x1_S1x1x1x1x1_2_0_0_0_0
abbrev rS3 : Rect S4x1x1x1x1 := Rect.unit (s := S4x1x1x1x1) ![3, 0, 0, 0, 0] S1x1x1x1x1.size inb_S4x1x1x1x1_S1x1x1x1x1_3_0_0_0_0
abbrev rD : Rect S1x1x1x1 := Rect.unit (s := S1x1x1x1) ![0, 0, 0, 0] S1x1x1x1.size inb_S1x1x1x1_S1x1x1x1_0_0_0_0
abbrev rO : Rect S512x512 := Rect.unit (s := S512x512) ![0, 0] S512x512.size inb_S512x512_S512x512_0_0

end

/-! ## What the body computes -/

/-- The block the body stores, from its six input blocks: the four planes accumulated in order, then the offset. -/
def body0 (x0 : Vec F S4x1x1x512x64 .f32) (x1 : Vec F S4x1x1x64x512 .f32) (x2 x3 x4 : Vec F S4x1x1x1x1 .f32) (x5 : Vec F S1x1x1x1 .f32) :=
  let acc1 := k0_pay10 (k0_pay2 (F := F)) (k0_pay5 (View.ld x0 rY0) (View.ld x1 rZ0)) (k0_pay6 (View.ld x0 rY0)) (k0_pay7 (View.ld x1 rZ0))
    (k0_pay8 (View.ld x2 rS0)) (k0_pay9 (View.ld x3 rS0)) (View.ld x4 rS0)
  let acc2 := k0_pay17 acc1 (k0_pay13 (View.ld x0 rY1) (View.ld x1 rZ1)) (k0_pay14 (View.ld x0 rY1)) (k0_pay15 (View.ld x1 rZ1))
    (k0_pay16 (View.ld x2 rS1)) (View.ld x3 rS1) (View.ld x4 rS1)
  let acc3 := k0_pay23 acc2 (k0_pay20 (View.ld x0 rY2) (View.ld x1 rZ2)) (k0_pay21 (View.ld x0 rY2)) (k0_pay22 (View.ld x1 rZ2))
    (View.ld x2 rS2) (View.ld x3 rS2) (View.ld x4 rS2)
  k0_pay1 acc3 (k0_pay25 (View.ld x1 rZ3)) (k0_pay26 (View.ld x0 rY3) (View.ld x1 rZ3)) (k0_pay27 (View.ld x0 rY3))
    (View.ld x2 rS3) (View.ld x3 rS3) (View.ld x4 rS3) (View.ld x5 rD)

/-- The output window's staging buffer after the body: its one store, which covers the block. -/
def out0_6 (x0 : Vec F S4x1x1x512x64 .f32) (x1 : Vec F S4x1x1x64x512 .f32) (x2 x3 x4 : Vec F S4x1x1x1x1 .f32) (x5 : Vec F S1x1x1x1 .f32) : Vec F S512x512 .bf16 :=
  View.canon [⟨rO, body0 x0 x1 x2 x3 x4 x5⟩]

theorem cover0_6 (p0 : Vec F S512x512 .bf16) (y : S512x512.Idx) :
    ∃ pc ∈ ([⟨rO, p0⟩] : List (View.Piece (Elt F) S512x512 .bf16)), y ∈ pc.1.set :=
  View.cover_of_tiled [⟨rO, p0⟩] S512x512.size (by rfl) y

/-! ## The body's triple -/

set_option maxHeartbeats 4000000 in
/-- On whole staging memrefs, the inputs' at contents x0 … x5 and the output's at anything, the body runs and leaves
    the inputs' as they were and the output's at out0_6 of the inputs'. -/
theorem sound_kernel0 (c : Dev nD) (E : Set ℕ) (i : grid0.Coords)
    (arg2 : Memref sig .tc .vmem S4x1x1x512x64 .f32) (harg2 : arg2.IsWhole) (arg3 : Memref sig .tc .vmem S4x1x1x64x512 .f32) (harg3 : arg3.IsWhole)
    (arg4 : Memref sig .tc .vmem S4x1x1x1x1 .f32) (harg4 : arg4.IsWhole) (arg5 : Memref sig .tc .vmem S4x1x1x1x1 .f32) (harg5 : arg5.IsWhole)
    (arg6 : Memref sig .tc .vmem S4x1x1x1x1 .f32) (harg6 : arg6.IsWhole) (arg7 : Memref sig .tc .vmem S1x1x1x1 .f32) (harg7 : arg7.IsWhole)
    (arg8 : Memref sig .tc .vmem S512x512 .bf16) (harg8 : arg8.IsWhole)
    (x0 : Vec F S4x1x1x512x64 .f32) (x1 : Vec F S4x1x1x64x512 .f32) (x2 x3 x4 : Vec F S4x1x1x1x1 .f32) (x5 : Vec F S1x1x1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__w_kernel i arg2 harg2 arg3 harg3 arg4 harg4 arg5 harg5 arg6 harg6 arg7 harg7 arg8 harg8) K := by
  simp only [cc0__w_kernel_eq_skeleton]; unfold cc0__w_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

section
variable (V : (c : Dev nD) → (b : Ref sig .tc) → Buf (Elt F) ((c : Thread nD τ).loc b))

/-! ## The pipeline's proof data -/

/-- After the body at point t each input's buffer holds its block and the output's holds out0_6 of the input blocks;
    the invariant is the scoped rest and the generator register, untouched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.KI.R1Runs.lean ====
/-
  Region 1 (the matrix product with bias) on one grid point. The grid is 4 x 2 x 8, the last axis k running over
  the eight 512-wide slices of the contracted axis. The kernel keeps a 1024 x 2048 accumulator in a scratch
  buffer across the eight points of one (i, j): at k = 0 it clears it, at every k it adds X_blk · W_blk^T to it,
  and at k = 7 it stores accumulator + bias into the output block. Three control cases follow: first (k = 0),
  middle (0 < k < 7), last (k = 7); here is the body's triple in each.
-/
import proofs.«118693_j25589415149863_2_alg».proof.Proof.Gen.KernelIdeal.Launch
import proofs.«118693_j25589415149863_2_alg».proof.Proof.Gen.KernelIdeal.Skeleton
import proofs.«118693_j25589415149863_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads and stores through (every one the whole buffer) -/

abbrev rX : Rect S1024x512 := Rect.unit (s := S1024x512) ![0, 0] S1024x512.size inb_S1024x512_S1024x512_0_0
abbrev rW : Rect S2048x512 := Rect.unit (s := S2048x512) ![0, 0] S2048x512.size inb_S2048x512_S2048x512_0_0
abbrev rB : Rect S2048 := Rect.unit (s := S2048) ![0] S2048.size inb_S2048_S2048_0
abbrev rA : Rect S1024x2048 := Rect.unit (s := S1024x2048) ![0, 0] S1024x2048.size inb_S1024x2048_S1024x2048_0_0

/-! ## The branch conditions -/

/-- The first conditional's condition (k = 0), as the skeleton's scalar chain over the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (k = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## What the body computes -/

/-- One accumulation step: the accumulator a plus the product of the point's X block and W block. -/
def accStep (x0 : Vec F S1024x512 .f32) (x1 : Vec F S2048x512 .bf16) (a : Vec F S1024x2048 .f32) :=
  k1_pay2 (View.ld x0 rX) (View.ld x1 rW) a

/-- The epilogue: accumulator plus the bias row broadcast over the rows. -/
def outStep (a : Vec F S1024x2048 .f32) (x2 : Vec F S2048 .f32) := k1_pay3 a (View.ld x2 rB)

theorem hzA : (![0, 0] : Fin 2 → Nat) = fun _ => 0 := funext fun a => by fin_cases a <;> rfl

theorem memA (y : S1024x2048.Idx) : y ∈ rA.set := View.mem_set_unit_zero hzA _ y

/-- One store through the whole-buffer rectangle leaves its payload: -/
theorem canon1 (w : S1024x2048.Idx → Elt F .f32) : View.canon [(⟨rA, w⟩ : View.Piece (Elt F) S1024x2048 .f32)] = w :=
  View.canon_unit_zero hzA _ w

theorem cover1 (w : S1024x2048.Idx → Elt F .f32) (y : S1024x2048.Idx) :
    ∃ p ∈ [(⟨rA, w⟩ : View.Piece (Elt F) S1024x2048 .f32)], y ∈ p.1.set :=
  ⟨_, List.mem_singleton_self _, memA y⟩

theorem read_one (v : View sig .tc .vmem S1024x2048 .f32) (f : v.ty.Contents (Elt F)) (w : S1024x2048.Idx → Elt F .f32) :
    v.read (Elt F) (v.writes (Elt F) f [(⟨rA, w⟩ : View.Piece (Elt F) S1024x2048 .f32)]) = w :=
  (View.read_writes_eq_canon v f _ (cover1 w)).trans (canon1 w)

/-- the later of two such stores leaves its payload: -/
theorem canon2 (w1 w0 : S1024x2048.Idx → Elt F .f32) :
    View.canon [(⟨rA, w1⟩ : View.Piece (Elt F) S1024x2048 .f32), ⟨rA, w0⟩] = w1 :=
  View.canon_cons_unit_zero hzA _ w1 _

theorem cover2 (w1 w0 : S1024x2048.Idx → Elt F .f32) (y : S1024x2048.Idx) :
    ∃ p ∈ [(⟨rA, w1⟩ : View.Piece (Elt F) S1024x2048 .f32), ⟨rA, w0⟩], y ∈ p.1.set :=
  ⟨_, List.mem_cons_self, memA y⟩

theorem read_two (v : View sig .tc .vmem S1024x2048 .f32) (f : v.ty.Contents (Elt F)) (w1 w0 : S1024x2048.Idx → Elt F .f32) :
    v.read (Elt F) (v.writes (Elt F) f [(⟨rA, w1⟩ : View.Piece (Elt F) S1024x2048 .f32), ⟨rA, w0⟩]) = w1 :=
  (View.read_writes_eq_canon v f _ (cover2 w1 w0)).trans (canon2 w1 w0)

/-- and a load through it after one such store reads the payload. -/
theorem readCov_one (v : View sig .tc .vmem S1024x2048 .f32) (w : S1024x2048.Idx → Elt F .f32) :
    v.readCov [(⟨rA, w⟩ : View.Piece (Elt F) S1024x2048 .f32)] rA.toLoadRect = w :=
  View.readCov_unit_zero v hzA _ w

/-! ## The body's triple, case by case -/

set_option maxHeartbeats 4000000 in
/-- First point of a row of eight (k = 0, k ≠ 7): the scratch, whatever it held, ends at one step from zero; the output
    buffer is not touched. -/
theorem sound_kernel1_A (c : Dev nD) (E : Set ℕ) (i : grid1.Coords) (hc0 : cond1_0 i) (hc1 : ¬cond1_1 i)
    (arg3 : Memref sig .tc .vmem S1024x512 .f32) (harg3 : arg3.IsWhole) (arg4 : Memref sig .tc .vmem S2048x512 .bf16) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (x0 : Vec F S1024x512 .f32) (x1 : Vec F S2048x512 .bf16) (x2 : Vec F S2048 .f32) (xo : Vec F S1024x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (accStep x0 x1 (k1_pay1 (F := F)))) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_run_names
  exact (read_two arg7.view f4 _ _).trans (by unfold accStep; rw [readCov_one]; rfl)

set_option maxHeartbeats 4000000 in
/-- A middle point (k ≠ 0, k ≠ 7): the scratch goes from xs to one step further; the output buffer is not touched. -/
theorem sound_kernel1_B (c : Dev nD) (E : Set ℕ) (i : grid1.Coords) (hc0 : ¬cond1_0 i) (hc1 : ¬cond1_1 i)
    (arg3 : Memref sig .tc .vmem S1024x512 .f32) (harg3 : arg3.IsWhole) (arg4 : Memref sig .tc .vmem S2048x512 .bf16) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (x0 : Vec F S1024x512 .f32) (x1 : Vec F S2048x512 .bf16) (x2 : Vec F S2048 .f32) (xo xs : Vec F S1024x2048 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (accStep x0 x1 (View.ld xs rA))) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (read_one arg7.view f4 _).trans rfl

set_option maxHeartbeats 4000000 in
/-- The last point of a row of eight (k = 7): the scratch goes one step further and the output buffer, whatever it held,
    ends at that plus the bias. -/
theorem sound_kernel1_C (c : Dev nD) (E : Set ℕ) (i : grid1.Coords) (hc0 : ¬cond1_0 i) (hc1 : cond1_1 i)
    (arg3 : Memref sig .tc .vmem S1024x512 .f32) (harg3 : arg3.IsWhole) (arg4 : Memref sig .tc .vmem S2048x512 .bf16) (harg4 : arg4.IsWhole)
    (arg5 : Memref sig .tc .vmem S2048 .f32) (harg5 : arg5.IsWhole) (arg6 : Memref sig .tc .vmem S1024x2048 .f32) (harg6 : arg6.IsWhole)
    (arg7 : Memref sig .tc .vmem S1024x2048 .f32) (harg7 : arg7.IsWhole)
    (x0 : Vec F S1024x512 .f32) (x1 : Vec F S2048x512 .bf16) (x2 : Vec F S2048 .f32) (xs : Vec F S1024x2048 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (outStep (accStep x0 x1 (View.ld xs rA)) x2)
            ∗ owns (c : Thread nD τ) arg7 fullShare (accStep x0 x1 (View.ld xs rA))) -∗ K ⟨⟩))
      ⊢ wp frame (wpE (defs₀ (F := F)) Variants.none c none) E (cc1__mm_kernel i arg3 harg3 arg4 harg4 arg5 harg5 arg6 harg6 arg7 harg7) K := by
  simp only [cc1__mm_kernel_eq_skeleton]; unfold cc1__mm_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    exact (read_one arg6.view f3 _).trans (by unfold outStep accStep; rw [readCov_one]; rfl)
  iexists _; isplitr
  swap; · iexact H4
  ipureintro
  sl_unfold_run_names
  exact (read_one arg7.view f4 _).trans rfl

end Cert.KernelIdeal.Fr

end
-- ==== Proof.KI.R1.lean ====
/-
  Region 1 over its whole grid: what the accumulator holds after each point, the pipeline's proof data, and the
  per-point obligation. After point t of a row of eight the scratch holds the partial product over the slices
  0 … (t mod 8) of the contracted axis: one step from zero at t ≡ 0 (mod 8), one step from the previous point's value
  otherwise. The output window is written only at t ≡ 7 (mod 8); elsewhere its buffer is handed back untouched.
-/
import proofs.«118693_j25589415149863_2_alg».proof.Proof.KI.R1Runs
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point of a row of eight the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The scratch operand: a whole scoped buffer of the kernel's own. -/
abbrev scM : Memref sig .tc .vmem S1024x2048 .f32 := Memref.whole cc1_scratch0

/-- The scoped buffers region 1 never names (region 0's staging buffers), each whole at some contents. -/
abbrev Oth (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class invariant splits into the scratch at some contents, the other scoped buffers, and the generator register. -/
theorem PhiA1_split (c : Dev nD) :
    (Pipeline.ΦA spec1 c : sProp 𝕄) ⊢ iprop((∃ d, owns (c : Thread nD τ) scM fullShare d) ∗ Oth (F := F) c ∗ (∃ r, prngReg c r)) := by
  unfold Pipeline.ΦA; rw [scopedRest1_eq]; simp only [scM, owns_whole]
  iintro ⟨⟨G0, G1, G2, G3, G4, G5, G6, G7, G8, G9, G10, G11, G12, G13, HS⟩, Hg⟩
  isplitl [HS]; · iexact HS
  isplitl [G0 G1 G2 G3 G4 G5 G6 G7 G8 G9 G10 G11 G12 G13]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    iexact G13
  iexact Hg

theorem PhiA1_join (c : Dev nD) :
    iprop((∃ d, owns (c : Thread nD τ) scM fullShare d) ∗ Oth (F := F) c ∗ (∃ r, prngReg c r)) ⊢ (Pipeline.ΦA spec1 c : sProp 𝕄) := by
  unfold Pipeline.ΦA; rw [scopedRest1_eq]; simp only [scM, owns_whole]
  iintro ⟨HS, ⟨G0, G1, G2, G3, G4, G5, G6, G7, G8, G9, G10, G11, G12, G13⟩, Hg⟩
  isplitr [Hg]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    iexact HS
  iexact Hg

section
variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the scratch holds after each point -/

/-- The accumulator after position n: one step from zero at the first point of a row of eight, one step from the previous
    position's value elsewhere. -/
def accAt (c : Dev nD) : (n : ℕ) → n < cfg1.N → Vec F S1024x2048 .f32
  | 0, hn => accStep (iblk1 V c 0 ⟨0, hn⟩) (iblk1 V c 1 ⟨0, hn⟩) (k1_pay1 (F := F))
  | n + 1, hn =>
    if (n + 1) % 8 = 0 then accStep (iblk1 V c 0 ⟨n + 1, hn⟩) (iblk1 V c 1 ⟨n + 1, hn⟩) (k1_pay1 (F := F))
    else accStep (iblk1 V c 0 ⟨n + 1, hn⟩) (iblk1 V c 1 ⟨n + 1, hn⟩) (View.ld (accAt c n (Nat.lt_of_succ_lt hn)) rA)

theorem accAt_first (c : Dev nD) (t : Fin cfg1.N) (h0 : t.val % 8 = 0) :
    accAt V c t.val t.isLt = accStep (iblk1 V c 0 t) (iblk1 V c 1 t) (k1_pay1 (F := F)) := by
  obtain ⟨n, hn⟩ := t
  cases n with
  | zero => rfl
  | succ n => exact if_pos h0

theorem accAt_next (c : Dev nD) (t : Fin cfg1.N) (h0 : ¬t.val % 8 = 0) :
    accAt V c t.val t.isLt = accStep (iblk1 V c 0 t) (iblk1 V c 1 t)
      (View.ld (accAt V c (t.val - 1) (Nat.lt_of_le_of_lt (Nat.sub_le _ _) t.isLt)) rA) := by
  obtain ⟨n, hn⟩ := t
  cases n with
  | zero => exact absurd (Nat.zero_mod _) h0
  | succ n => exact if_neg h0

/-- The invariant before position n: the class's before the first point; afterwards the scratch at what the point before
    left, the other scoped buffers at anything, the generator register at some state. -/
def PhiS (c : Dev nD) : (n : ℕ) → n ≤ cfg1.N → sProp 𝕄
  | 0, _ => Pipeline.ΦA spec1 c
  | n + 1, hn => iprop(owns (c : Thread nD τ) scM fullShare (accAt V c n hn) ∗ Oth (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (accAt V c n hn) ∗ Oth (F := F) c ∗ (∃ r, prngReg c r)) := rfl

theorem PhiS_pos (c : Dev nD) (n : ℕ) (h : n ≤ cfg1.N) (hz : n ≠ 0) :
    PhiS V c n h = iprop(owns (c : Thread nD τ) scM fullShare (accAt V c (n - 1) (by omega)) ∗ Oth (F := F) c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outStep (accAt V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outStep (accAt V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the point's position in its row of eight selects the case; the invariant hands the body the
    scratch (at anything before the very first point, at the previous point's value afterwards) and takes it back at this
    point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · have h7 : ¬t.val % 8 = 7 := by omega
    have hc0 := (hcond1_0 t).mpr h0
    have hc1 : ¬cond1_1 (grid1.coords t) := fun h => h7 ((hcond1_1 t).mp h)
    rw [Dat.leavesExact_idle (dat1 V c) 3 t (idleAt1_3 t hc1) (noFlush1_3 t hc1)]
    rw [accAt_first V c t h0]
    by_cases hz : t.val = 0
    · rw [PhiS_castSucc V c t, PhiS_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨HS, ⟨G0, G1, G2, G3, G4, G5, G6, G7, G8, G9, G10, G11, G12, G13⟩, Hg⟩
      iapply (sound_kernel1_A c Set.univ (grid1.coords t) hc0 hc1 _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS G0 G1 G2 G3 G4 G5 G6 G7 G8 G9 G10 G11 G12 G13 Hg]
      · isplitl [HS]; · iexact HS
        isplitl [G0 G1 G2 G3 G4 G5 G6 G7 G8 G9 G10 G11 G12 G13]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          iexact G13
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HS, ⟨G0, G1, G2, G3, G4, G5, G6, G7, G8, G9, G10, G11, G12, G13⟩, Hg⟩, Ho, ⟨%d0, H0⟩, ⟨%d1, H1⟩, ⟨%d2, H2⟩, ⟨%d3, H3⟩⟩
      iapply (sound_kernel1_A c Set.univ (grid1.coords t) hc0 hc1 _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS G0 G1 G2 G3 G4 G5 G6 G7 G8 G9 G10 G11 G12 G13 Hg]
      · isplitl [HS]; · iexact HS
        isplitl [G0 G1 G2 G3 G4 G5 G6 G7 G8 G9 G10 G11 G12 G13]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          iexact G13
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬cond1_0 (grid1.coords t) := fun h => h0 ((hcond1_0 t).mp h)
    rw [accAt_next V c t h0]
    rw [PhiS_castSucc V c t, PhiS_pos V c _ _ hz]
    by_cases h7 : t.val % 8 = 7
    · have hc1 := (hcond1_1 t).mpr h7
      rw [show (dat1 V c).leavesExact 3 t = owns (c : Thread nD τ) (st1_3 t) fullShare ((dat1 V c).after 3 t) from by
        unfold Dat.leavesExact; rw [liveAt1_3 t hc1], after1_3, accAt_next V c t h0]
      iintro ⟨⟨HS, ⟨G0, G1, G2, G3, G4, G5, G6, G7, G8, G9, G10, G11, G12, G13⟩, Hg⟩, Ho, ⟨%d0, H0⟩, ⟨%d1, H1⟩, ⟨%d2, H2⟩, ⟨%d3, H3⟩⟩
      iapply (sound_kernel1_C c Set.univ (grid1.coords t) hc0 hc1 _ _ _ _ _ _ _ _ _ _ (iblk1 V c 0 t) (iblk1 V c 1 t) (iblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS G0 G1 G2 G3 G4 G5 G6 G7 G8 G9 G10 G11 G12 G13 Hg]
      · isplitl [HS]; · iexact HS
        isplitl [G0 G1 G2 G3 G4 G5 G6 G7 G8 G9 G10 G11 G12 G13]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          iexact G13
        iexact Hg
      isplitl [Ho]; · iexact Ho
      isplitl [H0]; · iexact H0
      isplitl [H1]; · iexact H1
      isplitl [H2]; · iexact H2
      iexact H3
    · have hc1 : ¬cond1_1 (grid1.coords t) := fun h => h7 ((hcond1_1 t).mp h)
      rw [Dat.leavesExact_idle (dat1 V c) 3 t (idleAt1_3 t hc1) (noFlush1_3 t hc1)]
      iintro ⟨⟨HS, ⟨G0, G1, G2, G3, G4, G5, G6, G7, G8, G9, G10, G11, G12, G13⟩, Hg⟩, Ho, ⟨%d0, H0⟩, ⟨%d1, H1⟩, ⟨%d2, H2⟩, ⟨%d3, H3⟩⟩
      iapply (sound_kernel1_B c Set.univ (grid1.coords t) hc0 hc1 _ _ _ _ _ _ _ _ _ _ (iblk1 V c 0 t) (iblk1 V c 1 t) (iblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS G0 G1 G2 G3 G4 G5 G6 G7 G8 G9 G10 G11 G12 G13 Hg]
      · isplitl [HS]; · iexact HS
        isplitl [G0 G1 G2 G3 G4 G5 G6 G7 G8 G9 G10 G11 G12 G13]
        · isplitl [G0]; · iexact G0
          isplitl [G1]; · iexact G1
          isplitl [G2]; · iexact G2
          isplitl [G3]; · iexact G3
          isplitl [G4]; · iexact G4
          isplitl [G5]; · iexact G5
          isplitl [G6]; · iexact G6
          isplitl [G7]; · iexact G7
          isplitl [G8]; · iexact G8
          isplitl [G9]; · iexact G9
          isplitl [G10]; · iexact G10
          isplitl [G11]; · iexact G11
          isplitl [G12]; · iexact G12
          iexact G13
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- The scratch's contents may be forgotten: the invariant after any point gives the class's back. -/
theorem forget_acc (c : Dev nD) (x : Vec F S1024x2048 .f32) :
    iprop(owns (c : Thread nD τ) scM fullShare x ∗ Oth (F := F) c ∗ (∃ r, prngReg c r)) ⊢ (Pipeline.ΦA spec1 c : sProp 𝕄) := by
  have h : iprop(owns (c : Thread nD τ) scM fullShare x ∗ Oth (F := F) c ∗ (∃ r, prngReg c r))
      ⊢ (iprop((∃ d, owns (c : Thread nD τ) scM fullShare d) ∗ Oth (F := F) c ∗ (∃ r, prngReg c r)) : sProp 𝕄) := by
    iintro ⟨HS, HO, Hg⟩
    isplitl [HS]; · iexists _; iexact HS
    isplitl [HO]; · iexact HO
    iexact Hg
  exact h.trans (PhiA1_join (F := F) c)

/-- After the last point the invariant gives the class's back. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega)]
  exact forget_acc c _

end

end Cert.KernelIdeal.Fr

end
-- ==== Proof.KI.Run.lean ====
/-
  The whole program: the two regions one after the other, from the launch to the return. Between the regions a core's
  unscoped buffers hold: at launch the arguments; after region 0 also the weight matrix (bf16, 4096 x 4096) in the
  intermediate buffer; after region 1 also the result. Every argument array reads back as launched, and the result
  buffer holds what region 1's write-backs leave.
-/
import proofs.«118693_j25589415149863_2_alg».proof.Proof.KI.R0
import proofs.«118693_j25589415149863_2_alg».proof.Proof.KI.R1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => m ((c : Dev nD), b)
abbrev V0 : (c : Dev nD) → (b : Ref sig .tc) → Buf (Elt F) ((c : Thread nD τ).loc b) := fun c b => W0 m c b
/-- After region 0 (region 1's entry): its arrays at what its write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1 (the return). -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched: region 0 reads arguments 1 to 6 and region 1 arguments 0 and 7, through input windows -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((dat1 (V1 m) c).arrAt_in 0 rfl _).trans (A_eq1 (V1 m) c 0))
    _ = W0 m c (Proc.devRef .tc main_arg0) := W1_of_ne m c main_arg0 (by decide)
    _ = m ((c : Thread nD τ).loc main_arg0) := rfl

theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 0).trans (((dat0 (V0 m) c).arrAt_in 0 rfl _).trans (A_eq0 (V0 m) c 0))
    _ = m ((c : Thread nD τ).loc main_arg1) := rfl

theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((dat0 (V0 m) c).arrAt_in 1 rfl _).trans (A_eq0 (V0 m) c 1))
    _ = m ((c : Thread nD τ).loc main_arg2) := rfl

theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 2).trans (((dat0 (V0 m) c).arrAt_in 2 rfl _).trans (A_eq0 (V0 m) c 2))
    _ = m ((c : Thread nD τ).loc main_arg3) := rfl

theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := (W1_arr m c 3).trans (((dat0 (V0 m) c).arrAt_in 3 rfl _).trans (A_eq0 (V0 m) c 3))
    _ = m ((c : Thread nD τ).loc main_arg4) := rfl

theorem W2_main_arg5 (c : Dev nD) : W2 m c (Proc.devRef .tc main_arg5) = m ((c : Thread nD τ).loc main_arg5) :=
  calc W2 m c (Proc.devRef .tc main_arg5)
    _ = W1 m c (Proc.devRef .tc main_arg5) := W2_of_ne m c main_arg5 (by decide)
    _ = W0 m c (Proc.devRef .tc main_arg5) := (W1_arr m c 4).trans (((dat0 (V0 m) c).arrAt_in 4 rfl _).trans (A_eq0 (V0 m) c 4))
    _ = m ((c : Thread nD τ).loc main_arg5) := rfl

theorem W2_main_arg6 (c : Dev nD) : W2 m c (Proc.devRef .tc main_arg6) = m ((c : Thread nD τ).loc main_arg6) :=
  calc W2 m c (Proc.devRef .tc main_arg6)
    _ = W1 m c (Proc.devRef .tc main_arg6) := W2_of_ne m c main_arg6 (by decide)
    _ = W0 m c (Proc.devRef .tc main_arg6) := (W1_arr m c 5).trans (((dat0 (V0 m) c).arrAt_in 5 rfl _).trans (A_eq0 (V0 m) c 5))
    _ = m ((c : Thread nD τ).loc main_arg6) := rfl

theorem W2_main_arg7 (c : Dev nD) : W2 m c (Proc.devRef .tc main_arg7) = m ((c : Thread nD τ).loc main_arg7) :=
  calc W2 m c (Proc.devRef .tc main_arg7)
    _ = W1 m c (Proc.devRef .tc main_arg7) := (W2_arr m c 2).trans (((dat1 (V1 m) c).arrAt_in 2 rfl _).trans (A_eq1 (V1 m) c 2))
    _ = W0 m c (Proc.devRef .tc main_arg7) := W1_of_ne m c main_arg7 (by decide)
    _ = m ((c : Thread nD τ).loc main_arg7) := rfl

/-- The result buffer ends at what region 1's write-backs leave in it. -/
theorem W2_main_v1 (c : Dev nD) : W2 m c (Proc.devRef .tc main_v1) = (dat1 (V1 m) c).arrAt 3 cfg1.N := W2_arr m c 3

/-- The intermediate buffer holds, when region 1 is entered, what region 0's write-backs leave in it. -/
theorem V1_main_v0 (c : Dev nD) : V1 m c main_v0 = (dat0 (V0 m) c).arrAt 6 cfg0.N := W1_arr m c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers through both regions: the generator register at some state and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    have h : (Pipeline.ΦA spec1 c : sProp 𝕄)
        ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    rw [Pipeline.ownSems0_none]
    exact (hout1 (V1 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) := (main_chain c).trans (by chain_rfl)

set_option backward.isDefEq.respectTransparency.types false in
/-- From any memory with zero counters every weakly fair execution terminates, nothing faulting, and every unscoped buffer
    of every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c),
     (h c _ (mem_uc main_arg5 (by decide))).trans (W2_main_arg5 m c),
     (h c _ (mem_uc main_arg6 (by decide))).trans (W2_main_arg6 m c),
     (h c _ (mem_uc main_arg7 (by decide))).trans (W2_main_arg7 m c)⟩) (run_main m ρ)

/-- The run with the result named: the result buffer ends at what region 1's write-backs leave, the arguments as launched. -/
theorem run_value : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c),
     (h c _ (mem_uc main_arg4 (by decide))).trans (W2_main_arg4 m c),
     (h c _ (mem_uc main_arg5 (by decide))).trans (W2_main_arg5 m c),
     (h c _ (mem_uc main_arg6 (by decide))).trans (W2_main_arg6 m c),
     (h c _ (mem_uc main_arg7 (by decide))).trans (W2_main_arg7 m c)⟩) (run_main m ρ)

end Cert.KernelIdeal.Fr

end
-- ==== Proof.Spec.lean ====
/-
  The mathematics of the claim, stated once over literal index types and importing no program.

  A codebook weight matrix is rebuilt from thresholded bits and then used in a linear layer:
  for bit planes k < 4 and tiles (r, c) of an 8 x 8 tiling, with Yb = [Y > 1/2] and Zb = [Z > 1/2] as 0/1 numbers,

    W[r, c, y, z] = (sum over k of  a_k * (sum_i Yb[k,y,i] * Zb[k,i,z]) + b_k * (sum_i Yb[k,y,i]) + c_k * (sum_i Zb[k,i,z])) + d[r, c]

  the matrix of the layer is M[r*512 + y, c*512 + z] = W[r, c, y, z], and the result is
    out[p, g] = (sum over q < 4096 of X[p, q] * M[g, q]) + bias[g].
  Everything is an extended real; only commutativity and associativity of + are ever used to regroup sums,
  and these hold on the extended reals without any finiteness assumption.
-/
import Idealize.ShloMosaic.PureOps.Ideal
import Idealize.ShloMosaic.Lib.ValueIdx

noncomputable section

namespace Cert.Codebook

open Idealize.ShloMosaic Idealize.ShloMosaic.ValueIdx

/-- The f32 word of one half, the threshold of both programs. -/
abbrev halfWord : BitVec 32 := 0x3F000000#32

/-- A thresholded entry as a number: 1 when x > 1/2, else 0 (the comparison's bit read as a natural number). -/
def bitOf (x : EReal) : EReal := (((Ideal.cmp .ogt x (Ideal.ofBits .f32 halfWord)).toNat : ℝ) : EReal)

abbrev Sh5 (n0 n1 n2 n3 n4 : Nat) : Shape := ⟨5, ![n0, n1, n2, n3, n4]⟩
abbrev Sh4 (n0 n1 n2 n3 : Nat) : Shape := ⟨4, ![n0, n1, n2, n3]⟩
abbrev Sh2 (n0 n1 : Nat) : Shape := ⟨2, ![n0, n1]⟩
abbrev Sh1 (n0 : Nat) : Shape := ⟨1, ![n0]⟩

section
variable (Y : (Sh5 4 8 8 512 64).Idx → EReal) (Z : (Sh5 4 8 8 64 512).Idx → EReal)
  (a b c : (Sh5 4 8 8 1 1).Idx → EReal) (d : (Sh4 8 8 1 1).Idx → EReal)

/-- The inner product of the bit rows: sum_i Yb[k,r,c,y,i] * Zb[k,r,c,i,z]. -/
def core (k : Fin 4) (r cc : Fin 8) (y z : Fin 512) : EReal :=
  ∑ i : Fin 64, bitOf (Y (ix5 k r cc y i)) * bitOf (Z (ix5 k r cc i z))

/-- The number of set bits in row y of Yb. -/
def ysum (k : Fin 4) (r cc : Fin 8) (y : Fin 512) : EReal := ∑ i : Fin 64, bitOf (Y (ix5 k r cc y i))

/-- The number of set bits in column z of Zb. -/
def zsum (k : Fin 4) (r cc : Fin 8) (z : Fin 512) : EReal := ∑ i : Fin 64, bitOf (Z (ix5 k r cc i z))

/-- One bit plane's contribution to W[r, c, y, z]. -/
def plane (k : Fin 4) (r cc : Fin 8) (y z : Fin 512) : EReal :=
  (a (ix5 k r cc 0 0) * core Y Z k r cc y z + b (ix5 k r cc 0 0) * ysum Y k r cc y) + c (ix5 k r cc 0 0) * zsum Z k r cc z

/-- W[r, c, y, z]: the four planes summed, plus the tile's offset. -/
def wEntry (r cc : Fin 8) (y z : Fin 512) : EReal :=
  (∑ k : Fin 4, plane Y Z a b c k r cc y z) + d (ix4 r cc 0 0)

/-- The layer's matrix, row g = r*512 + y, column q = c*512 + z. -/
def wMat (g q : Fin 4096) : EReal :=
  wEntry Y Z a b c d ⟨g.val / 512, by omega⟩ ⟨q.val / 512, by omega⟩ ⟨g.val % 512, by omega⟩ ⟨q.val % 512, by omega⟩
end

/-- x @ M^T + bias for any matrix M given entrywise: out[p, g] = (sum_q X[p,q] * M g q) + bias[g]. -/
def linear (X : (Sh2 4096 4096).Idx → EReal) (M : Fin 4096 → Fin 4096 → EReal) (bias : (Sh1 4096).Idx → EReal)
    (p g : Fin 4096) : EReal :=
  (∑ q : Fin 4096, X (ix2 p q) * M g q) + bias (ix1 g)

/-- The whole result, entry (p, g). -/
def outEntry (X : (Sh2 4096 4096).Idx → EReal) (Y : (Sh5 4 8 8 512 64).Idx → EReal) (Z : (Sh5 4 8 8 64 512).Idx → EReal)
    (a b c : (Sh5 4 8 8 1 1).Idx → EReal) (d : (Sh4 8 8 1 1).Idx → EReal) (bias : (Sh1 4096).Idx → EReal)
    (p g : Fin 4096) : EReal :=
  linear X (wMat Y Z a b c d) bias p g

/-- The result array as one function of the eight argument arrays. -/
def out (X : (Sh2 4096 4096).Idx → EReal) (Y : (Sh5 4 8 8 512 64).Idx → EReal) (Z : (Sh5 4 8 8 64 512).Idx → EReal)
    (a b c : (Sh5 4 8 8 1 1).Idx → EReal) (d : (Sh4 8 8 1 1).Idx → EReal) (bias : (Sh1 4096).Idx → EReal) :
    (Sh2 4096 4096).Idx → EReal :=
  fun j => outEntry X Y Z a b c d bias (j 0) (j 1)

end Cert.Codebook

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.LibAxisFolds.lean ====
/-
  Sums and maxima along one axis, and the layouts of a pairwise difference, read at an index.

  A pairwise operation between the rows of two matrices is written by spreading each over a third axis: the [a, c] matrix
  viewed as [a, 1, c] and repeated along the middle axis, the [b, c] matrix viewed as [1, b, c] and repeated along the
  first, both [a, b, c]; a reduction over the last axis then leaves one number per pair. The lemmas here read each of
  those steps at an index given by coordinates, for every extent:
  • `shapeCast_ab_a1b_apply`: [a, c] viewed as [a, 1, c] reads, at `(p, u, k)`, the matrix at `(p, k)`;
  • `broadcastTo_a1c_abc_apply`: [a, 1, c] repeated to [a, b, c] reads, at `(p, q, k)`, the operand at `(p, 0, k)`;
  • `broadcastTo_1bc_abc_apply`: [1, b, c] repeated to [a, b, c] reads, at `(p, q, k)`, the operand at `(0, q, k)`;
  • `lastSum3_apply`: over the extended reals the sum of an [a, b, c] array along its last axis reads, at `(p, q)`,
    `∑ k < c` of the array at `(p, q, k)`.
  And for a matrix [a, b] reduced along either axis, over the extended reals:
  • `firstSum_apply`: the sum along the first axis reads, at `q`, `∑ k < a` of the matrix at `(k, q)`;
  • `lastMax_apply` / `firstMax_apply`: the maximum along the last (first) axis is the fold of `max`, from the value of
    the accumulator's word, over the entries of the row (column);
  • `hostLastMax_apply` / `hostFirstMax_apply`: the same for a host reduction with a maximum body, from its initial value.
-/
import Idealize.ShloMosaic.Lib.Pipeline.Value
import Idealize.ShloMosaic.Lib.ValueIdx
import Idealize.ShloMosaic.PureOps.Ideal.Laws

noncomputable section

namespace Cert.Lib.AxisFolds

open Idealize.ShloMosaic Idealize.ShloMosaic.ValueIdx

variable {α : Type}

/-- A matrix [a, c] viewed as [a, 1, c]: entry `(p, u, k)` is entry `(p, k)` of the matrix (the row-major positions
    `(p · 1 + 0) · c + k` and `p · c + k` agree). -/
theorem shapeCast_ab_a1b_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- [a, 1, c] repeated along its middle axis: entry `(p, q, k)` is the operand's entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- [1, b, c] repeated along its first axis: entry `(p, q, k)` is the operand's entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- Over the extended reals the sum of an [a, b, c] array along its last axis, read at `(p, q)`, is `∑ k < c` of the array
    at `(p, q, k)`. -/
theorem lastSum3_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun d => Fin.ext (by
      match d with
      | ⟨0, _⟩ => rfl
      | ⟨1, _⟩ => rfl
      | ⟨2, _⟩ => rfl)))

/-- Over the extended reals the sum of an [a, b] matrix along its first axis, read at column `q`, is `∑ k < a` of the
    matrix at `(k, q)`. -/
theorem firstSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun d => Fin.ext (by
      match d with
      | ⟨0, _⟩ => rfl
      | ⟨1, _⟩ => rfl)))

/-- Over the extended reals the maximum of an [a, b] matrix along its last axis, read at row `p`, is the fold of `max`,
    from the value of the accumulator's word, over the entries `(p, k)` of the row. -/
theorem lastMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) fun k => v (ix2 p k) :=
  (Ideal.multiReduction_maximumf_single v acc h hφ hacc (ix1 p)).trans
    (congrArg (fun f => (Finset.univ : Finset (Fin b)).fold max (Ideal.ofBits φ acc) f) (funext fun k =>
      congrArg v (funext fun d => Fin.ext (by
        match d with
        | ⟨0, _⟩ => rfl
        | ⟨1, _⟩ => rfl))))

/-- The same along the first axis: at column `q`, the fold of `max` over the entries `(k, q)` of the column. -/
theorem firstMax_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ v acc h hφ hacc (ix1 q)
      = (Finset.univ : Finset (Fin a)).fold max (Ideal.ofBits φ acc) fun k => v (ix2 k q) :=
  (Ideal.multiReduction_maximumf_single v acc h hφ hacc (ix1 q)).trans
    (congrArg (fun f => (Finset.univ : Finset (Fin a)).fold max (Ideal.ofBits φ acc) f) (funext fun k =>
      congrArg v (funext fun d => Fin.ext (by
        match d with
        | ⟨0, _⟩ => rfl
        | ⟨1, _⟩ => rfl))))

/-- A host reduction with a maximum body along the last axis of an [a, b] matrix, over the extended reals: at row `p` the
    fold of `max`, from the initial value, over the entries `(p, k)` of the row. -/
theorem hostLastMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) fun k => x (ix2 p k) :=
  (Host.reduce_eq_fold_single (FloatOps.maximumf (F := Ideal) (φ := φ)) x init h' h hu (ix1 p)).trans
    (congrArg (fun f => (Finset.univ : Finset (Fin b)).fold max (init (Shape.Idx.first hu)) f) (funext fun k =>
      congrArg x (funext fun d => Fin.ext (by
        match d with
        | ⟨0, _⟩ => rfl
        | ⟨1, _⟩ => rfl))))

/-- The same along the first axis: at column `q`, the fold of `max`, from the initial value, over the column's entries. -/
theorem hostFirstMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) :=
  (Host.reduce_eq_fold_single (FloatOps.maximumf (F := Ideal) (φ := φ)) x init h' h hu (ix1 q)).trans
    (congrArg (fun f => (Finset.univ : Finset (Fin a)).fold max (init (Shape.Idx.first hu)) f) (funext fun k =>
      congrArg x (funext fun d => Fin.ext (by
        match d with
        | ⟨0, _⟩ => rfl
        | ⟨1, _⟩ => rfl))))

end Cert.Lib.AxisFolds

end
-- ==== Proof.KI.Pay0.lean ====
/-
  Region 0's stored block read at an index, over the extended reals. The body accumulates, over the four bit
  planes k in order, acc + a_k * (Yb_k Zb_k) + b_k * rowsum(Yb_k) + c_k * colsum(Zb_k) from the zero block, then adds
  the tile's offset; Yb and Zb are the blocks thresholded at one half, read as 0/1 numbers. Nothing rounds, and the
  additions only need regrouping, which holds on the extended reals without any finiteness assumption.
-/
import proofs.«118693_j25589415149863_2_alg».proof.Proof.KI.R0
import proofs.«118693_j25589415149863_2_alg».proof.Proof.Spec
import proofs.«118693_j25589415149863_2_alg».proof.Proof.LibPlainDot
import proofs.«118693_j25589415149863_2_alg».proof.Proof.LibKeepdims
import proofs.«118693_j25589415149863_2_alg».proof.Proof.LibAxisFolds
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Cert.KernelIdeal.Fr Cert.Codebook Idealize.ShloMosaic Idealize.ShloMosaic.ValueIdx

/-! ## Layout steps read at an index -/

section Layout
variable {α : Type}

/-- A [1, 1, 1, a, b] array viewed as [a, b]: entry (p, q) is entry (0, 0, 0, p, q). -/
theorem shapeCast_111ab_ab_apply {a b : ℕ} (x : (⟨5, ![1, 1, 1, a, b]⟩ : Shape).Idx → α)
    (h : (⟨5, ![1, 1, 1, a, b]⟩ : Shape).ShapeCasts ⟨2, ![a, b]⟩) (p : Fin a) (q : Fin b) :
    shapeCast ⟨2, ![a, b]⟩ x h (ix2 p q) = x (ix5 (0 : Fin 1) (0 : Fin 1) (0 : Fin 1) p q) :=
  shapeCast_apply x h _ _ (by
    rw [Shape.rowMajor_val_five, Shape.rowMajor_val_two]
    show ((((0 * 1 + 0) * 1 + 0) * a + p.val) * b + q.val) = p.val * b + q.val
    simp only [Nat.zero_mul, Nat.zero_add, Nat.mul_one, Nat.add_zero])

/-- A [1, 1, 1, 1, 1] array viewed as [1, 1]: the one entry. -/
theorem shapeCast_11111_11_apply (x : (⟨5, ![1, 1, 1, 1, 1]⟩ : Shape).Idx → α)
    (h : (⟨5, ![1, 1, 1, 1, 1]⟩ : Shape).ShapeCasts ⟨2, ![1, 1]⟩) :
    shapeCast ⟨2, ![1, 1]⟩ x h (ix2 (0 : Fin 1) (0 : Fin 1)) = x (ix5 (0 : Fin 1) (0 : Fin 1) (0 : Fin 1) (0 : Fin 1) (0 : Fin 1)) :=
  shapeCast_apply x h _ _ (by
    rw [Shape.rowMajor_val_five, Shape.rowMajor_val_two]
    rfl)

/-- A [1, 1, 1, 1] array viewed as [1, 1]: the one entry. -/
theorem shapeCast_1111_11_apply (x : (⟨4, ![1, 1, 1, 1]⟩ : Shape).Idx → α)
    (h : (⟨4, ![1, 1, 1, 1]⟩ : Shape).ShapeCasts ⟨2, ![1, 1]⟩) :
    shapeCast ⟨2, ![1, 1]⟩ x h (ix2 (0 : Fin 1) (0 : Fin 1)) = x (ix4 (0 : Fin 1) (0 : Fin 1) (0 : Fin 1) (0 : Fin 1)) :=
  shapeCast_apply x h _ _ (by
    rw [Shape.rowMajor_val_four, Shape.rowMajor_val_two]
    rfl)

/-- A [1, 1] array spread to [a, b]: every entry is the one entry. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) :=
  broadcastTo_apply v h (ix2 p q) (ix2 (0 : Fin 1) (0 : Fin 1)) fun ax => by
    match ax with
    | ⟨0, _⟩ => rfl
    | ⟨1, _⟩ => rfl

end Layout

/-! ## The thresholded bit -/

/-- A one-bit word widened to 32 bits and read as a signed integer is the bit as a natural number. -/
theorem toInt_setWidth_bit (b : BitVec 1) : (b.setWidth 32).toInt = (b.toNat : ℤ) := by
  by_cases h : b = 1#1
  · subst h; decide
  · have h0 := eq_zero_of_ne_one h
    subst h0; decide

/-- So the converted comparison is the 0/1 number of the specification. -/
theorem bit_eq (b : BitVec 1) : (((b.setWidth 32).toInt : ℝ) : EReal) = ((b.toNat : ℝ) : EReal) := by
  rw [toInt_setWidth_bit, Int.cast_natCast]

/-- The thresholded Y block at (p, i). -/
theorem thrY_apply (v : Vec Ideal S1x1x1x512x64 .f32) (p : Fin 512) (i : Fin 64) :
    k0_pay3 (F := Ideal) v (ix2 p i) = bitOf (v (ix5 (0 : Fin 1) (0 : Fin 1) (0 : Fin 1) p i)) := by
  unfold k0_pay3
  simp only [sitofp_apply, extui_apply, cmpf_apply, broadcast_apply]
  rw [shapeCast_111ab_ab_apply]
  exact bit_eq _

/-- The thresholded Z block at (i, q). -/
theorem thrZ_apply (v : Vec Ideal S1x1x1x64x512 .f32) (i : Fin 64) (q : Fin 512) :
    k0_pay4 (F := Ideal) v (ix2 i q) = bitOf (v (ix5 (0 : Fin 1) (0 : Fin 1) (0 : Fin 1) i q)) := by
  unfold k0_pay4
  simp only [sitofp_apply, extui_apply, cmpf_apply, broadcast_apply]
  rw [shapeCast_111ab_ab_apply]
  exact bit_eq _

/-! ## One plane's three sums -/

/-- The product of the bit blocks at (p, q): the sum over the 64 inner positions. -/
theorem core_apply (vy : Vec Ideal S1x1x1x512x64 .f32) (vz : Vec Ideal S1x1x1x64x512 .f32) (p q : Fin 512) :
    k0_pay5 (F := Ideal) vy vz (ix2 p q)
      = ∑ i : Fin 64, bitOf (vy (ix5 (0 : Fin 1) (0 : Fin 1) (0 : Fin 1) p i)) * bitOf (vz (ix5 (0 : Fin 1) (0 : Fin 1) (0 : Fin 1) i q)) := by
  unfold k0_pay5
  refine (Cert.PlainDot.matmul_zero_apply dot_S512x64_S64x512_S512x512_1_0_0_1_n_n rfl _ _ p q).trans ?_
  refine Finset.sum_congr rfl fun i _ => ?_
  rw [truncf_apply, truncf_apply, thrY_apply, thrZ_apply]

/-- The row sums of the Y bits, kept as a column: entry (p, 0). -/
theorem ycol_apply (vy : Vec Ideal S1x1x1x512x64 .f32) (p : Fin 512) (u : Fin 1) :
    k0_pay6 (F := Ideal) vy (ix2 p u) = ∑ i : Fin 64, bitOf (vy (ix5 (0 : Fin 1) (0 : Fin 1) (0 : Fin 1) p i)) := by
  unfold k0_pay6
  refine (Cert.Lib.Keepdims.shapeCast_a_a1_apply _ _ p u).trans ?_
  refine (Cert.Lib.Keepdims.laneSum_apply _ _ _ _ _ p).trans ?_
  exact Finset.sum_congr rfl fun i _ => thrY_apply vy p i

/-- The column sums of the Z bits, kept as a row: entry (0, q). -/
theorem zrow_apply (vz : Vec Ideal S1x1x1x64x512 .f32) (u : Fin 1) (q : Fin 512) :
    k0_pay7 (F := Ideal) vz (ix2 u q) = ∑ i : Fin 64, bitOf (vz (ix5 (0 : Fin 1) (0 : Fin 1) (0 : Fin 1) i q)) := by
  unfold k0_pay7
  refine (shapeCast_a_1a_apply _ _ u q).trans ?_
  refine (Cert.Lib.AxisFolds.firstSum_apply _ _ _ _ _ q).trans ?_
  exact Finset.sum_congr rfl fun i _ => thrZ_apply vz i q

/-! ## One accumulation step -/

/-- The accumulator after one plane: acc + a * core + b * (row sums spread over the columns) + c * (column sums spread
    over the rows), the three scales each a [1, 1] array spread to the operand's shape. -/
def step (acc core : FVec Ideal S512x512 .f32) (ycol : FVec Ideal S512x1 .f32) (zrow : FVec Ideal S1x512 .f32)
    (a b c : FVec Ideal S1x1 .f32) : FVec Ideal S512x512 .f32 :=
  addf (addf (addf acc (mulf (broadcastTo S512x512 a broadcasts_S1x1_S512x512) core))
      (broadcastTo S512x512 (mulf (broadcastTo S512x1 b broadcasts_S1x1_S512x1) ycol) broadcasts_S512x1_S512x512))
    (broadcastTo S512x512 (mulf (broadcastTo S1x512 c broadcasts_S1x1_S1x512) zrow) broadcasts_S1x512_S512x512)

theorem step_apply (acc core : FVec Ideal S512x512 .f32) (ycol : FVec Ideal S512x1 .f32) (zrow : FVec Ideal S1x512 .f32)
    (a b c : FVec Ideal S1x1 .f32) (p q : Fin 512) :
    step acc core ycol zrow a b c (ix2 p q)
      = ((acc (ix2 p q) + a (ix2 (0 : Fin 1) (0 : Fin 1)) * core (ix2 p q)) + b (ix2 (0 : Fin 1) (0 : Fin 1)) * ycol (ix2 p (0 : Fin 1)))
          + c (ix2 (0 : Fin 1) (0 : Fin 1)) * zrow (ix2 (0 : Fin 1) q) := by
  unfold step
  rw [addf_apply, addf_apply, addf_apply, mulf_apply, broadcastTo_11_ab_apply,
    Cert.Lib.Keepdims.broadcastTo_a1_ab_apply, mulf_apply, broadcastTo_11_ab_apply,
    broadcastTo_1b_ab_apply, mulf_apply, broadcastTo_11_ab_apply]

/-- One plane's step from the plane's loaded blocks and scales. -/
def planeStep (acc : FVec Ideal S512x512 .f32) (vy : Vec Ideal S1x1x1x512x64 .f32) (vz : Vec Ideal S1x1x1x64x512 .f32)
    (va vb vc : Vec Ideal S1x1x1x1x1 .f32) : FVec Ideal S512x512 .f32 :=
  step acc (k0_pay5 vy vz) (k0_pay6 vy) (k0_pay7 vz) (shapeCast S1x1 va shapeCasts_S1x1x1x1x1_S1x1)
    (shapeCast S1x1 vb shapeCasts_S1x1x1x1x1_S1x1) (shapeCast S1x1 vc shapeCasts_S1x1x1x1x1_S1x1)

theorem planeStep_apply (acc : FVec Ideal S512x512 .f32) (vy : Vec Ideal S1x1x1x512x64 .f32)
    (vz : Vec Ideal S1x1x1x64x512 .f32) (va vb vc : Vec Ideal S1x1x1x1x1 .f32) (p q : Fin 512) :
    planeStep acc vy vz va vb vc (ix2 p q)
      = ((acc (ix2 p q)
            + va (ix5 (0 : Fin 1) (0 : Fin 1) (0 : Fin 1) (0 : Fin 1) (0 : Fin 1))
              * ∑ i : Fin 64, bitOf (vy (ix5 (0 : Fin 1) (0 : Fin 1) (0 : Fin 1) p i)) * bitOf (vz (ix5 (0 : Fin 1) (0 : Fin 1) (0 : Fin 1) i q)))
          + vb (ix5 (0 : Fin 1) (0 : Fin 1) (0 : Fin 1) (0 : Fin 1) (0 : Fin 1)) * ∑ i : Fin 64, bitOf (vy (ix5 (0 : Fin 1) (0 : Fin 1) (0 : Fin 1) p i)))
        + vc (ix5 (0 : Fin 1) (0 : Fin 1) (0 : Fin 1) (0 : Fin 1) (0 : Fin 1)) * ∑ i : Fin 64, bitOf (vz (ix5 (0 : Fin 1) (0 : Fin 1) (0 : Fin 1) i q)) := by
  unfold planeStep
  rw [step_apply, core_apply, ycol_apply, zrow_apply, shapeCast_11111_11_apply, shapeCast_11111_11_apply,
    shapeCast_11111_11_apply]

/-! ## The loads: plane k of each input block -/

theorem ldY0 (x0 : Vec Ideal S4x1x1x512x64 .f32) (p : Fin 512) (i : Fin 64) :
    View.ld x0 rY0 (ix5 (0 : Fin 1) (0 : Fin 1) (0 : Fin 1) p i) = x0 (ix5 (0 : Fin 4) (0 : Fin 1) (0 : Fin 1) p i) :=
  congrArg x0 (funext fun a => Fin.ext (by
    match a with
    | ⟨0, _⟩ => rfl
    | ⟨1, _⟩ => rfl
    | ⟨2, _⟩ => rfl
    | ⟨3, _⟩ => exact (show 0 + 1 * p.val = p.val by omega)
    | ⟨4, _⟩ => exact (show 0 + 1 * i.val = i.val by omega)))

theorem ldZ0 (x1 : Vec Ideal S4x1x1x64x512 .f32) (q : Fin 512) (i : Fin 64) :
    View.ld x1 rZ0 (ix5 (0 : Fin 1) (0 : Fin 1) (0 : Fin 1) i q) = x1 (ix5 (0 : Fin 4) (0 : Fin 1) (0 : Fin 1) i q) :=
  congrArg x1 (funext fun a => Fin.ext (by
    match a with
    | ⟨0, _⟩ => rfl
    | ⟨1, _⟩ => rfl
    | ⟨2, _⟩ => rfl
    | ⟨3, _⟩ => exact (show 0 + 1 * i.val = i.val by omega)
    | ⟨4, _⟩ => exact (show 0 + 1 * q.val = q.val by omega)))

theorem ldS0 (x : Vec Ideal S4x1x1x1x1 .f32) :
    View.ld x rS0 (ix5 (0 : Fin 1) (0 : Fin 1) (0 : Fin 1) (0 : Fin 1) (0 : Fin 1)) = x (ix5 (0 : Fin 4) (0 : Fin 1) (0 : Fin 1) (0 : Fin 1) (0 : Fin 1)) :=
  congrArg x (funext fun a => Fin.ext (by
    match a with
    | ⟨0, _⟩ => rfl
    | ⟨1, _⟩ => rfl
    | ⟨2, _⟩ => rfl
    | ⟨3, _⟩ => rfl
    | ⟨4, _⟩ => rfl))

theorem ldY1 (x0 : Vec Ideal S4x1x1x512x64 .f32) (p : Fin 512) (i : Fin 64) :
    View.ld x0 rY1 (ix5 (0 : Fin 1) (0 : Fin 1) (0 : Fin 1) p i) = x0 (ix5 (1 : Fin 4) (0 : Fin 1) (0 : Fin 1) p i) :=
  congrArg x0 (funext fun a => Fin.ext (by
    match a with
    | ⟨0, _⟩ => rfl
    | ⟨1, _⟩ => rfl
    | ⟨2, _⟩ => rfl
    | ⟨3, _⟩ => exact (show 0 + 1 * p.val = p.val by omega)
    | ⟨4, _⟩ => exact (show 0 + 1 * i.val = i.val by omega)))

theorem ldZ1 (x1 : Vec Ideal S4x1x1x64x512 .f32) (q : Fin 512) (i : Fin 64) :
    View.ld x1 rZ1 (ix5 (0 : Fin 1) (0 : Fin 1) (0 : Fin 1) i q) = x1 (ix5 (1 : Fin 4) (0 : Fin 1) (0 : Fin 1) i q) :=
  congrArg x1 (funext fun a => Fin.ext (by
    match a with
    | ⟨0, _⟩ => rfl
    | ⟨1, _⟩ => rfl
    | ⟨2, _⟩ => rfl
    | ⟨3, _⟩ => exact (show 0 + 1 * i.val = i.val by omega)
    | ⟨4, _⟩ => exact (show 0 + 1 * q.val = q.val by omega)))

theorem ldS1 (x : Vec Ideal S4x1x1x1x1 .f32) :
    View.ld x rS1 (ix5 (0 : Fin 1) (0 : Fin 1) (0 : Fin 1) (0 : Fin 1) (0 : Fin 1)) = x (ix5 (1 : Fin 4) (0 : Fin 1) (0 : Fin 1) (0 : Fin 1) (0 : Fin 1)) :=
  congrArg x (funext fun a => Fin.ext (by
    match a with
    | ⟨0, _⟩ => rfl
    | ⟨1, _⟩ => rfl
    | ⟨2, _⟩ => rfl
    | ⟨3, _⟩ => rfl
    | ⟨4, _⟩ => rfl))

theorem ldY2 (x0 : Vec Ideal S4x1x1x512x64 .f32) (p : Fin 512) (i : Fin 64) :
    View.ld x0 rY2 (ix5 (0 : Fin 1) (0 : Fin 1) (0 : Fin 1) p i) = x0 (ix5 (2 : Fin 4) (0 : Fin 1) (0 : Fin 1) p i) :=
  congrArg x0 (funext fun a => Fin.ext (by
    match a with
    | ⟨0, _⟩ => rfl
    | ⟨1, _⟩ => rfl
    | ⟨2, _⟩ => rfl
    | ⟨3, _⟩ => exact (show 0 + 1 * p.val = p.val by omega)
    | ⟨4, _⟩ => exact (show 0 + 1 * i.val = i.val by omega)))

theorem ldZ2 (x1 : Vec Ideal S4x1x1x64x512 .f32) (q : Fin 512) (i : Fin 64) :
    View.ld x1 rZ2 (ix5 (0 : Fin 1) (0 : Fin 1) (0 : Fin 1) i q) = x1 (ix5 (2 : Fin 4) (0 : Fin 1) (0 : Fin 1) i q) :=
  congrArg x1 (funext fun a => Fin.ext (by
    match a with
    | ⟨0, _⟩ => rfl
    | ⟨1, _⟩ => rfl
    | ⟨2, _⟩ => rfl
    | ⟨3, _⟩ => exact (show 0 + 1 * i.val = i.val by omega)
    | ⟨4, _⟩ => exact (show 0 + 1 * q.val = q.val by omega)))

theorem ldS2 (x : Vec Ideal S4x1x1x1x1 .f32) :
    View.ld x rS2 (ix5 (0 : Fin 1) (0 : Fin 1) (0 : Fin 1) (0 : Fin 1) (0 : Fin 1)) = x (ix5 (2 : Fin 4) (0 : Fin 1) (0 : Fin 1) (0 : Fin 1) (0 : Fin 1)) :=
  congrArg x (funext fun a => Fin.ext (by
    match a with
    | ⟨0, _⟩ => rfl
    | ⟨1, _⟩ => rfl
    | ⟨2, _⟩ => rfl
    | ⟨3, _⟩ => rfl
    | ⟨4, _⟩ => rfl))

theorem ldY3 (x0 : Vec Ideal S4x1x1x512x64 .f32) (p : Fin 512) (i : Fin 64) :
    View.ld x0 rY3 (ix5 (0 : Fin 1) (0 : Fin 1) (0 : Fin 1) p i) = x0 (ix5 (3 : Fin 4) (0 : Fin 1) (0 : Fin 1) p i) :=
  congrArg x0 (funext fun a => Fin.ext (by
    match a with
    | ⟨0, _⟩ => rfl
    | ⟨1, _⟩ => rfl
    | ⟨2, _⟩ => rfl
    | ⟨3, _⟩ => exact (show 0 + 1 * p.val = p.val by omega)
    | ⟨4, _⟩ => exact (show 0 + 1 * i.val = i.val by omega)))

theorem ldZ3 (x1 : Vec Ideal S4x1x1x64x512 .f32) (q : Fin 512) (i : Fin 64) :
    View.ld x1 rZ3 (ix5 (0 : Fin 1) (0 : Fin 1) (0 : Fin 1) i q) = x1 (ix5 (3 : Fin 4) (0 : Fin 1) (0 : Fin 1) i q) :=
  congrArg x1 (funext fun a => Fin.ext (by
    match a with
    | ⟨0, _⟩ => rfl
    | ⟨1, _⟩ => rfl
    | ⟨2, _⟩ => rfl
    | ⟨3, _⟩ => exact (show 0 + 1 * i.val = i.val by omega)
    | ⟨4, _⟩ => exact (show 0 + 1 * q.val = q.val by omega)))

theorem ldS3 (x : Vec Ideal S4x1x1x1x1 .f32) :
    View.ld x rS3 (ix5 (0 : Fin 1) (0 : Fin 1) (0 : Fin 1) (0 : Fin 1) (0 : Fin 1)) = x (ix5 (3 : Fin 4) (0 : Fin 1) (0 : Fin 1) (0 : Fin 1) (0 : Fin 1)) :=
  congrArg x (funext fun a => Fin.ext (by
    match a with
    | ⟨0, _⟩ => rfl
    | ⟨1, _⟩ => rfl
    | ⟨2, _⟩ => rfl
    | ⟨3, _⟩ => rfl
    | ⟨4, _⟩ => rfl))

theorem ldD (x5 : Vec Ideal S1x1x1x1 .f32) :
    View.ld x5 rD (ix4 (0 : Fin 1) (0 : Fin 1) (0 : Fin 1) (0 : Fin 1)) = x5 (ix4 (0 : Fin 1) (0 : Fin 1) (0 : Fin 1) (0 : Fin 1)) :=
  congrArg x5 (funext fun a => Fin.ext (by
    match a with
    | ⟨0, _⟩ => rfl
    | ⟨1, _⟩ => rfl
    | ⟨2, _⟩ => rfl
    | ⟨3, _⟩ => rfl))

/-! ## The stored block -/

/-- The initial accumulator: the zero word everywhere. -/
theorem pay2_apply (j : S512x512.Idx) : k0_pay2 (F := Ideal) j = 0 := Ideal.ofBits_zero_f32

/-- The body's block is the four steps in order from the zero block, plus the offset spread over the block; the last
    conversion changes nothing over the extended reals. -/
theorem body0_eq (x0 : Vec Ideal S4x1x1x512x64 .f32) (x1 : Vec Ideal S4x1x1x64x512 .f32)
    (x2 x3 x4 : Vec Ideal S4x1x1x1x1 .f32) (x5 : Vec Ideal S1x1x1x1 .f32) :
    body0 x0 x1 x2 x3 x4 x5
      = truncf .bf16 (addf
          (planeStep (planeStep (planeStep (planeStep (k0_pay2 (F := Ideal))
              (View.ld x0 rY0) (View.ld x1 rZ0) (View.ld x2 rS0) (View.ld x3 rS0) (View.ld x4 rS0))
              (View.ld x0 rY1) (View.ld x1 rZ1) (View.ld x2 rS1) (View.ld x3 rS1) (View.ld x4 rS1))
              (View.ld x0 rY2) (View.ld x1 rZ2) (View.ld x2 rS2) (View.ld x3 rS2) (View.ld x4 rS2))
              (View.ld x0 rY3) (View.ld x1 rZ3) (View.ld x2 rS3) (View.ld x3 rS3) (View.ld x4 rS3))
          (broadcastTo S512x512 (shapeCast S1x1 (View.ld x5 rD) shapeCasts_S1x1x1x1_S1x1) broadcasts_S1x1_S512x512))
          bitsLt_bf16_f32 := rfl

/-- Entry (p, q) of the stored block: the four planes' contributions summed, plus the offset. -/
theorem body0_apply (x0 : Vec Ideal S4x1x1x512x64 .f32) (x1 : Vec Ideal S4x1x1x64x512 .f32)
    (x2 x3 x4 : Vec Ideal S4x1x1x1x1 .f32) (x5 : Vec Ideal S1x1x1x1 .f32) (p q : Fin 512) :
    body0 x0 x1 x2 x3 x4 x5 (ix2 p q)
      = (∑ k : Fin 4, ((x2 (ix5 k (0 : Fin 1) (0 : Fin 1) (0 : Fin 1) (0 : Fin 1))
              * (∑ i : Fin 64, bitOf (x0 (ix5 k (0 : Fin 1) (0 : Fin 1) p i)) * bitOf (x1 (ix5 k (0 : Fin 1) (0 : Fin 1) i q)))
            + x3 (ix5 k (0 : Fin 1) (0 : Fin 1) (0 : Fin 1) (0 : Fin 1)) * (∑ i : Fin 64, bitOf (x0 (ix5 k (0 : Fin 1) (0 : Fin 1) p i))))
            + x4 (ix5 k (0 : Fin 1) (0 : Fin 1) (0 : Fin 1) (0 : Fin 1)) * (∑ i : Fin 64, bitOf (x1 (ix5 k (0 : Fin 1) (0 : Fin 1) i q)))))
        + x5 (ix4 (0 : Fin 1) (0 : Fin 1) (0 : Fin 1) (0 : Fin 1)) := by
  rw [body0_eq, truncf_apply, addf_apply, planeStep_apply, planeStep_apply, planeStep_apply, planeStep_apply,
    pay2_apply, broadcastTo_11_ab_apply, shapeCast_1111_11_apply, ldD, Fin.sum_univ_four]
  simp only [ldY0 x0 p, ldY1 x0 p, ldY2 x0 p, ldY3 x0 p, ldZ0 x1 q, ldZ1 x1 q, ldZ2 x1 q, ldZ3 x1 q,
    ldS0 x2, ldS1 x2, ldS2 x2, ldS3 x2, ldS0 x3, ldS1 x3, ldS2 x3, ldS3 x3, ldS0 x4, ldS1 x4, ldS2 x4, ldS3 x4,
    zero_add, add_assoc]

end Cert.KernelIdeal.Pay

end
-- ==== Proof.KI.Val0.lean ====
/-
  Region 0's result array as one function of the argument arrays.

  Point t of the 8 x 8 grid is the tile (r, c) = (t / 8, t mod 8). There every input block is the slice [:, r, c, :, :]
  of its array (for d the entry [r, c]), and the output block is rows 512 r … and columns 512 c … of the weight matrix.
  So the block written back at t is block t of the matrix M[512 r + y, 512 c + z] = W[r, c, y, z], and the 64 blocks
  tile the 4096 x 4096 array.
-/
import proofs.«118693_j25589415149863_2_alg».proof.Proof.KI.R0
import proofs.«118693_j25589415149863_2_alg».proof.Proof.KI.Pay0
import proofs.«118693_j25589415149863_2_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.KernelIdeal.Pay Cert.Codebook
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The index maps, decided over the grid -/

theorem idxY : ∀ t : Fin cfg0.N, win0_0.index t (0 : Fin 5) = 0 ∧ win0_0.index t (1 : Fin 5) = t.val / 8 ∧ win0_0.index t (2 : Fin 5) = t.val % 8
    ∧ win0_0.index t (3 : Fin 5) = 0 ∧ win0_0.index t (4 : Fin 5) = 0 :=
  (by decide +kernel : ∀ t : Fin grid0.N, _)
theorem idxZ : ∀ t : Fin cfg0.N, win0_1.index t (0 : Fin 5) = 0 ∧ win0_1.index t (1 : Fin 5) = t.val / 8 ∧ win0_1.index t (2 : Fin 5) = t.val % 8
    ∧ win0_1.index t (3 : Fin 5) = 0 ∧ win0_1.index t (4 : Fin 5) = 0 :=
  (by decide +kernel : ∀ t : Fin grid0.N, _)
theorem idxSa : ∀ t : Fin cfg0.N, win0_2.index t (0 : Fin 5) = 0 ∧ win0_2.index t (1 : Fin 5) = t.val / 8 ∧ win0_2.index t (2 : Fin 5) = t.val % 8
    ∧ win0_2.index t (3 : Fin 5) = 0 ∧ win0_2.index t (4 : Fin 5) = 0 :=
  (by decide +kernel : ∀ t : Fin grid0.N, _)
theorem idxSb : ∀ t : Fin cfg0.N, win0_3.index t (0 : Fin 5) = 0 ∧ win0_3.index t (1 : Fin 5) = t.val / 8 ∧ win0_3.index t (2 : Fin 5) = t.val % 8
    ∧ win0_3.index t (3 : Fin 5) = 0 ∧ win0_3.index t (4 : Fin 5) = 0 :=
  (by decide +kernel : ∀ t : Fin grid0.N, _)
theorem idxSc : ∀ t : Fin cfg0.N, win0_4.index t (0 : Fin 5) = 0 ∧ win0_4.index t (1 : Fin 5) = t.val / 8 ∧ win0_4.index t (2 : Fin 5) = t.val % 8
    ∧ win0_4.index t (3 : Fin 5) = 0 ∧ win0_4.index t (4 : Fin 5) = 0 :=
  (by decide +kernel : ∀ t : Fin grid0.N, _)
theorem idxD : ∀ t : Fin cfg0.N, win0_5.index t (0 : Fin 4) = t.val / 8 ∧ win0_5.index t (1 : Fin 4) = t.val % 8
    ∧ win0_5.index t (2 : Fin 4) = 0 ∧ win0_5.index t (3 : Fin 4) = 0 :=
  (by decide +kernel : ∀ t : Fin grid0.N, _)
theorem idxO : ∀ t : Fin cfg0.N, win0_6.index t (0 : Fin 2) = t.val / 8 ∧ win0_6.index t (1 : Fin 2) = t.val % 8 :=
  (by decide +kernel : ∀ t : Fin grid0.N, _)

/-! ## The blocks read at array indices -/

theorem blkY (c : Dev nD) (t : Fin cfg0.N) (r cc : Fin 8) (hr : t.val / 8 = r.val) (hc : t.val % 8 = cc.val) (k : Fin 4) (p : Fin 512) (i : Fin 64) :
    iblk0 V c 0 t (ix5 k 0 0 p i) = (V c main_arg1 : (Sh5 4 8 8 512 64).Idx → EReal) (ix5 k r cc p i) := by
  obtain ⟨e0, e1, e2, e3, e4⟩ := idxY t
  unfold iblk0
  show V c main_arg1 (((cfg0.win 0).blk t).view.emb (ix5 k 0 0 p i)) = _
  refine congrArg (V c main_arg1) ?_
  funext a; apply Fin.ext
  match a with
  | ⟨0, _⟩ => show win0_0.index t (0 : Fin 5) * 4 + 1 * k.val = k.val; omega
  | ⟨1, _⟩ => show win0_0.index t (1 : Fin 5) * 1 + 1 * 0 = r.val; omega
  | ⟨2, _⟩ => show win0_0.index t (2 : Fin 5) * 1 + 1 * 0 = cc.val; omega
  | ⟨3, _⟩ => show win0_0.index t (3 : Fin 5) * 512 + 1 * p.val = p.val; omega
  | ⟨4, _⟩ => show win0_0.index t (4 : Fin 5) * 64 + 1 * i.val = i.val; omega

theorem blkZ (c : Dev nD) (t : Fin cfg0.N) (r cc : Fin 8) (hr : t.val / 8 = r.val) (hc : t.val % 8 = cc.val) (k : Fin 4) (i : Fin 64) (q : Fin 512) :
    iblk0 V c 1 t (ix5 k 0 0 i q) = (V c main_arg2 : (Sh5 4 8 8 64 512).Idx → EReal) (ix5 k r cc i q) := by
  obtain ⟨e0, e1, e2, e3, e4⟩ := idxZ t
  unfold iblk0
  show V c main_arg2 (((cfg0.win 1).blk t).view.emb (ix5 k 0 0 i q)) = _
  refine congrArg (V c main_arg2) ?_
  funext a; apply Fin.ext
  match a with
  | ⟨0, _⟩ => show win0_1.index t (0 : Fin 5) * 4 + 1 * k.val = k.val; omega
  | ⟨1, _⟩ => show win0_1.index t (1 : Fin 5) * 1 + 1 * 0 = r.val; omega
  | ⟨2, _⟩ => show win0_1.index t (2 : Fin 5) * 1 + 1 * 0 = cc.val; omega
  | ⟨3, _⟩ => show win0_1.index t (3 : Fin 5) * 64 + 1 * i.val = i.val; omega
  | ⟨4, _⟩ => show win0_1.index t (4 : Fin 5) * 512 + 1 * q.val = q.val; omega

theorem blkSa (c : Dev nD) (t : Fin cfg0.N) (r cc : Fin 8) (hr : t.val / 8 = r.val) (hc : t.val % 8 = cc.val) (k : Fin 4) :
    iblk0 V c 2 t (ix5 k 0 0 0 0) = (V c main_arg3 : (Sh5 4 8 8 1 1).Idx → EReal) (ix5 k r cc 0 0) := by
  obtain ⟨e0, e1, e2, e3, e4⟩ := idxSa t
  unfold iblk0
  show V c main_arg3 (((cfg0.win 2).blk t).view.emb (ix5 k 0 0 0 0)) = _
  refine congrArg (V c main_arg3) ?_
  funext a; apply Fin.ext
  match a with
  | ⟨0, _⟩ => show win0_2.index t (0 : Fin 5) * 4 + 1 * k.val = k.val; omega
  | ⟨1, _⟩ => show win0_2.index t (1 : Fin 5) * 1 + 1 * 0 = r.val; omega
  | ⟨2, _⟩ => show win0_2.index t (2 : Fin 5) * 1 + 1 * 0 = cc.val; omega
  | ⟨3, _⟩ => show win0_2.index t (3 : Fin 5) * 1 + 1 * 0 = 0; omega
  | ⟨4, _⟩ => show win0_2.index t (4 : Fin 5) * 1 + 1 * 0 = 0; omega

theorem blkSb (c : Dev nD) (t : Fin cfg0.N) (r cc : Fin 8) (hr : t.val / 8 = r.val) (hc : t.val % 8 = cc.val) (k : Fin 4) :
    iblk0 V c 3 t (ix5 k 0 0 0 0) = (V c main_arg4 : (Sh5 4 8 8 1 1).Idx → EReal) (ix5 k r cc 0 0) := by
  obtain ⟨e0, e1, e2, e3, e4⟩ := idxSb t
  unfold iblk0
  show V c main_arg4 (((cfg0.win 3).blk t).view.emb (ix5 k 0 0 0 0)) = _
  refine congrArg (V c main_arg4) ?_
  funext a; apply Fin.ext
  match a with
  | ⟨0, _⟩ => show win0_3.index t (0 : Fin 5) * 4 + 1 * k.val = k.val; omega
  | ⟨1, _⟩ => show win0_3.index t (1 : Fin 5) * 1 + 1 * 0 = r.val; omega
  | ⟨2, _⟩ => show win0_3.index t (2 : Fin 5) * 1 + 1 * 0 = cc.val; omega
  | ⟨3, _⟩ => show win0_3.index t (3 : Fin 5) * 1 + 1 * 0 = 0; omega
  | ⟨4, _⟩ => show win0_3.index t (4 : Fin 5) * 1 + 1 * 0 = 0; omega

theorem blkSc (c : Dev nD) (t : Fin cfg0.N) (r cc : Fin 8) (hr : t.val / 8 = r.val) (hc : t.val % 8 = cc.val) (k : Fin 4) :
    iblk0 V c 4 t (ix5 k 0 0 0 0) = (V c main_arg5 : (Sh5 4 8 8 1 1).Idx → EReal) (ix5 k r cc 0 0) := by
  obtain ⟨e0, e1, e2, e3, e4⟩ := idxSc t
  unfold iblk0
  show V c main_arg5 (((cfg0.win 4).blk t).view.emb (ix5 k 0 0 0 0)) = _
  refine congrArg (V c main_arg5) ?_
  funext a; apply Fin.ext
  match a with
  | ⟨0, _⟩ => show win0_4.index t (0 : Fin 5) * 4 + 1 * k.val = k.val; omega
  | ⟨1, _⟩ => show win0_4.index t (1 : Fin 5) * 1 + 1 * 0 = r.val; omega
  | ⟨2, _⟩ => show win0_4.index t (2 : Fin 5) * 1 + 1 * 0 = cc.val; omega
  | ⟨3, _⟩ => show win0_4.index t (3 : Fin 5) * 1 + 1 * 0 = 0; omega
  | ⟨4, _⟩ => show win0_4.index t (4 : Fin 5) * 1 + 1 * 0 = 0; omega

theorem blkD (c : Dev nD) (t : Fin cfg0.N) (r cc : Fin 8) (hr : t.val / 8 = r.val) (hc : t.val % 8 = cc.val) :
    iblk0 V c 5 t (ix4 0 0 0 0) = (V c main_arg6 : (Sh4 8 8 1 1).Idx → EReal) (ix4 r cc 0 0) := by
  obtain ⟨e0, e1, e2, e3⟩ := idxD t
  unfold iblk0
  show V c main_arg6 (((cfg0.win 5).blk t).view.emb (ix4 0 0 0 0)) = _
  refine congrArg (V c main_arg6) ?_
  funext a; apply Fin.ext
  match a with
  | ⟨0, _⟩ => show win0_5.index t (0 : Fin 4) * 1 + 1 * 0 = r.val; omega
  | ⟨1, _⟩ => show win0_5.index t (1 : Fin 4) * 1 + 1 * 0 = cc.val; omega
  | ⟨2, _⟩ => show win0_5.index t (2 : Fin 4) * 1 + 1 * 0 = 0; omega
  | ⟨3, _⟩ => show win0_5.index t (3 : Fin 4) * 1 + 1 * 0 = 0; omega

/-! ## The weight matrix -/

/-- What the intermediate array ends holding: the layer's matrix built from the argument arrays the region finds. -/
def GW (c : Dev nD) : (Sh2 4096 4096).Idx → EReal :=
  fun idx => wMat (V c main_arg1) (V c main_arg2) (V c main_arg3) (V c main_arg4) (V c main_arg5) (V c main_arg6) (idx 0) (idx 1)

/-- Row 512 r + p, column 512 c + q of the matrix is W[r, c, p, q]. -/
theorem wMat_tile (Y : (Sh5 4 8 8 512 64).Idx → EReal) (Z : (Sh5 4 8 8 64 512).Idx → EReal)
    (a b c : (Sh5 4 8 8 1 1).Idx → EReal) (d : (Sh4 8 8 1 1).Idx → EReal) (r cc : Fin 8) (p q : Fin 512)
    (h1 : r.val * 512 + p.val < 4096) (h2 : cc.val * 512 + q.val < 4096) :
    wMat Y Z a b c d ⟨r.val * 512 + p.val, h1⟩ ⟨cc.val * 512 + q.val, h2⟩ = wEntry Y Z a b c d r cc p q := by
  have hp := p.isLt; have hq := q.isLt
  have e1 : (⟨(r.val * 512 + p.val) / 512, by omega⟩ : Fin 8) = r := Fin.ext (by show (r.val * 512 + p.val) / 512 = r.val; omega)
  have e2 : (⟨(cc.val * 512 + q.val) / 512, by omega⟩ : Fin 8) = cc := Fin.ext (by show (cc.val * 512 + q.val) / 512 = cc.val; omega)
  have e3 : (⟨(r.val * 512 + p.val) % 512, by omega⟩ : Fin 512) = p := Fin.ext (by show (r.val * 512 + p.val) % 512 = p.val; omega)
  have e4 : (⟨(cc.val * 512 + q.val) % 512, by omega⟩ : Fin 512) = q := Fin.ext (by show (cc.val * 512 + q.val) % 512 = q.val; omega)
  unfold wMat
  rw [e1, e2, e3, e4]

theorem hz0 : (![0, 0] : Fin 2 → Nat) = fun _ => 0 := funext fun a => by fin_cases a <;> rfl

/-- The one store of the body covers the block: the block holds the stored value. -/
theorem out0_6_eq (x0 : Vec Ideal S4x1x1x512x64 .f32) (x1 : Vec Ideal S4x1x1x64x512 .f32) (x2 x3 x4 : Vec Ideal S4x1x1x1x1 .f32) (x5 : Vec Ideal S1x1x1x1 .f32) :
    out0_6 x0 x1 x2 x3 x4 x5 = body0 x0 x1 x2 x3 x4 x5 := by
  unfold out0_6
  exact View.canon_unit_zero hz0 _ _

/-- What point t writes back is its block of the weight matrix. -/
theorem flushed0_6_eq (c : Dev nD) (t : Fin cfg0.N) :
    (dat0 V c).flushed 6 t = ((cfg0.win 6).blk t).view.read (Elt Ideal) (GW V c) := by
  have hN : t.val < 64 := lt_of_lt_of_eq t.isLt (show cfg0.N = 64 from N_0)
  obtain ⟨o0, o1⟩ := idxO t
  let r : Fin 8 := ⟨t.val / 8, by omega⟩
  let cc : Fin 8 := ⟨t.val % 8, by omega⟩
  have hr : t.val / 8 = r.val := rfl
  have hc : t.val % 8 = cc.val := rfl
  show (cfg0.win 6).cut (grid0.coords t) ((dat0 V c).after 6 t) = _
  rw [after0_6, out0_6_eq]
  funext y
  obtain ⟨p, q, rfl⟩ : ∃ (p q : Fin 512), y = ix2 p q := ⟨y 0, y 1, eq_ix2 y⟩
  have h1 : r.val * 512 + p.val < 4096 := by have := p.isLt; have := r.isLt; omega
  have h2 : cc.val * 512 + q.val < 4096 := by have := q.isLt; have := cc.isLt; omega
  show body0 (iblk0 V c 0 t) (iblk0 V c 1 t) (iblk0 V c 2 t) (iblk0 V c 3 t) (iblk0 V c 4 t) (iblk0 V c 5 t) (ix2 p q)
    = GW V c (((cfg0.win 6).blk t).view.emb (ix2 p q))
  have hemb : ((cfg0.win 6).blk t).view.emb (ix2 p q) = ix2 (⟨r.val * 512 + p.val, h1⟩ : Fin 4096) (⟨cc.val * 512 + q.val, h2⟩ : Fin 4096) := by
    funext a; apply Fin.ext
    match a with
    | ⟨0, _⟩ => show win0_6.index t (0 : Fin 2) * 512 + 1 * p.val = t.val / 8 * 512 + p.val; omega
    | ⟨1, _⟩ => show win0_6.index t (1 : Fin 2) * 512 + 1 * q.val = t.val % 8 * 512 + q.val; omega
  rw [hemb, body0_apply]
  simp only [blkY V c t r cc hr hc, blkZ V c t r cc hr hc, blkSa V c t r cc hr hc, blkSb V c t r cc hr hc, blkSc V c t r cc hr hc, blkD V c t r cc hr hc]
  show _ = wMat (V c main_arg1) (V c main_arg2) (V c main_arg3) (V c main_arg4) (V c main_arg5) (V c main_arg6) ⟨r.val * 512 + p.val, h1⟩ ⟨cc.val * 512 + q.val, h2⟩
  rw [wMat_tile]
  rfl

theorem mem_blk0_6 (t : Fin cfg0.N) (i : S4096x4096.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v0).slice (win0_6.rect t)).set ↔ _
  rw [View.set_slice_whole, Rect.mem_set_unit]
  exact Iff.rfl

/-- Every index of the weight matrix lies in the block of its tile's point. -/
theorem cover0_6w (i : S4096x4096.Idx) : ∃ t : Fin cfg0.N, (cfg0.win 6).flush t = true ∧ i ∈ ((cfg0.win 6).blk t).view.set := by
  have hi0 : (i 0).val < 4096 := (i 0).isLt
  have hi1 : (i 1).val < 4096 := (i 1).isLt
  have hN : cfg0.N = 64 := N_0
  let t : Fin cfg0.N := ⟨(i 0).val / 512 * 8 + (i 1).val / 512, by omega⟩
  have htv : t.val = (i 0).val / 512 * 8 + (i 1).val / 512 := rfl
  obtain ⟨o0, o1⟩ := idxO t
  refine ⟨t, flush0_6 t, ?_⟩
  rw [mem_blk0_6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- The intermediate array after region 0. -/
theorem final0 (c : Dev nD) : (dat0 V c).arrAt 6 cfg0.N = GW V c :=
  (dat0 V c).arrAt_eq_of_cover 6 (GW V c) (fun t _ => flushed0_6_eq V c t) cover0_6w

end Cert.KernelIdeal.Val

end
-- ==== Proof.LibDotTransposedRhs.lean ====
/-
  A contraction with the right operand transposed, read at an output index, over the extended reals.

  For the dimension numbers "contract the left operand's axis 1 with the right operand's axis 1, no batch axis"
  (an [M,K] array against an [N,K] array: rows against rows, as a query block meets a key block), entry (p, g) of the
  product into a zero accumulator is the sum over k < K of the left operand at (p, k) times the right operand at
  (g, k). At the ideal instance nothing rounds and the order of a finite sum is immaterial. The statements are general
  in the three extents.
-/
import Idealize.ShloMosaic.PureOps.Ideal.Laws
import Idealize.ShloMosaic.Lib.ValueIdx

noncomputable section

namespace Cert.DotTransposedRhs

open Idealize.ShloMosaic Idealize.ShloMosaic.ValueIdx

variable (M K N : ℕ)

/-- Axis 0 of the left operand's index is the output's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- Axis 1 of the left operand's index is the contraction position. -/
theorem lhs_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- Axis 0 of the right operand's index is the output's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Axis 1 of the right operand's index is the contraction position. -/
theorem rhs_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum over its one-axis index shape is the sum over k < K of row entry times row entry. -/
theorem sum_eq (l : (⟨2, ![M, K]⟩ : Shape).Idx → EReal) (r : (⟨2, ![N, K]⟩ : Shape).Idx → EReal) (p : Fin M) (g : Fin N) :
    ∑ q : (DotDims.transposedRhs M K N).contr.Idx,
        l ((DotDims.transposedRhs M K N).lhsIdx (ix2 p g) q) * r ((DotDims.transposedRhs M K N).rhsIdx (ix2 p g) q)
      = ∑ k : Fin K, l (ix2 p k) * r (ix2 g k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p g) ((contrEquiv1 (DotDims.transposedRhs M K N) K rfl rfl).symm k) = ix2 p k :=
    funext fun a => Fin.ext (by
      match a with
      | ⟨0, _⟩ => exact lhs_row M K N _ _
      | ⟨1, _⟩ => exact (lhs_contr M K N _ _).trans hk)
  have er : (DotDims.transposedRhs M K N).rhsIdx (ix2 p g) ((contrEquiv1 (DotDims.transposedRhs M K N) K rfl rfl).symm k) = ix2 g k :=
    funext fun a => Fin.ext (by
      match a with
      | ⟨0, _⟩ => exact rhs_row M K N _ _
      | ⟨1, _⟩ => exact (rhs_contr M K N _ _).trans hk)
  rw [el, er]

variable {M K N}

/-- A matrix unit's product with these dimension numbers into the zero accumulator, at entry (p, g). -/
theorem matmul_zero_apply {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (p : Fin M) (g : Fin N) :
    matmul (F := Ideal) d none l r (constant ⟨2, ![M, N]⟩ .f32 0x00000000#32) (ix2 p g)
      = ∑ k : Fin K, l (ix2 p k) * r (ix2 g k) := by
  subst hd
  simp only [matmul]
  rw [Ideal.matmul_constant_zero_apply]
  exact sum_eq M K N l r p g

end Cert.DotTransposedRhs

end
-- ==== Proof.KI.Pay1.lean ====
/-
  Region 1's pure steps read at an index, over the extended reals: one accumulation step adds to the accumulator
  at (p, g) the sum over the 512 contracted positions of X[p, k] * W[g, k]; the epilogue adds the bias entry of
  column g; the cleared accumulator is zero everywhere; a load of a whole buffer reads the buffer.
-/
import proofs.«118693_j25589415149863_2_alg».proof.Proof.KI.R1Runs
import proofs.«118693_j25589415149863_2_alg».proof.Proof.LibDotTransposedRhs
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Cert.KernelIdeal.Fr Idealize.ShloMosaic Idealize.ShloMosaic.ValueIdx

/-! ## Whole-buffer loads -/

/-- A load of the whole accumulator reads it. -/
theorem ldA (a : Vec Ideal S1024x2048 .f32) : View.ld a rA = a :=
  View.ld_unit_zero (by funext a; match a with | ⟨0, _⟩ => rfl | ⟨1, _⟩ => rfl) _ a

/-- A load of the whole X block reads it. -/
theorem ldX (x0 : Vec Ideal S1024x512 .f32) : View.ld x0 rX = x0 :=
  View.ld_unit_zero (by funext a; match a with | ⟨0, _⟩ => rfl | ⟨1, _⟩ => rfl) _ x0

/-- A load of the whole W block reads it. -/
theorem ldW (x1 : Vec Ideal S2048x512 .bf16) : View.ld x1 rW = x1 :=
  View.ld_unit_zero (by funext a; match a with | ⟨0, _⟩ => rfl | ⟨1, _⟩ => rfl) _ x1

/-- A load of the whole bias block reads it. -/
theorem ldB (x2 : Vec Ideal S2048 .f32) : View.ld x2 rB = x2 :=
  View.ld_unit_zero (by funext a; match a with | ⟨0, _⟩ => rfl) _ x2

/-! ## The three payloads -/

/-- The cleared accumulator: the zero word everywhere. -/
theorem pay1_apply (j : S1024x2048.Idx) : k1_pay1 (F := Ideal) j = 0 := by
  unfold k1_pay1
  simp only [shapeCast_self]
  exact Ideal.ofBits_zero_f32

/-- One accumulation step at (p, g): rows of X against rows of W, nothing rounded. -/
theorem accStep_apply (x0 : Vec Ideal S1024x512 .f32) (x1 : Vec Ideal S2048x512 .bf16) (a : Vec Ideal S1024x2048 .f32)
    (p : Fin 1024) (g : Fin 2048) :
    accStep x0 x1 a (ix2 p g) = a (ix2 p g) + ∑ k : Fin 512, x0 (ix2 p k) * x1 (ix2 g k) := by
  unfold accStep k1_pay2
  simp only [shapeCast_self, ldX, ldW]
  rw [addf_apply]
  exact congrArg (a (ix2 p g) + ·)
    (Cert.DotTransposedRhs.matmul_zero_apply dot_S1024x512_S2048x512_S1024x2048_1_1_0_0_n_n rfl _ x1 p g)

/-- The epilogue at (p, g): the bias vector viewed as one row and spread over the rows. -/
theorem outStep_apply (a : Vec Ideal S1024x2048 .f32) (x2 : Vec Ideal S2048 .f32) (p : Fin 1024) (g : Fin 2048) :
    outStep a x2 (ix2 p g) = a (ix2 p g) + x2 (ix1 g) := by
  unfold outStep k1_pay3
  simp only [ldB]
  rw [addf_apply, broadcastTo_1b_ab_apply, shapeCast_a_1a_apply]

end Cert.KernelIdeal.Pay

end
-- ==== Proof.LibBlockSum.lean ====
/-
  A sum over a·b rows taken block by block.

  The rows 0 … a·b - 1 fall into a consecutive blocks of b rows: block t holds the rows b·t + p for p < b.  Every row is
  b·t + p for exactly one pair (t, p) with t < a and p < b, so summing block by block — the blocks counted by a natural
  number below a — is summing over all the rows.
-/
import Mathlib.Algebra.BigOperators.Fin
import Mathlib.Algebra.BigOperators.Group.Finset.Basic
import Mathlib.Logic.Equiv.Fin.Basic
import Mathlib.Tactic.Ring

namespace BlockSum

/-- Row p of block t lies below a·b. -/
theorem block_lt {a b t : ℕ} (h : t < a) (p : Fin b) : b * t + p.val < a * b := by
  have hp := p.isLt
  calc b * t + p.val < b * t + b := by omega
    _ = b * (t + 1) := by ring
    _ ≤ b * a := Nat.mul_le_mul_left b h
    _ = a * b := Nat.mul_comm b a

/-- The sum over the blocks of the sums within each block is the sum over all the rows. -/
theorem sum_blocks {M : Type*} [AddCommMonoid M] (a b : ℕ) (g : Fin (a * b) → M) :
    ∑ t ∈ Finset.range a, (if h : t < a then ∑ p : Fin b, g ⟨b * t + p.val, block_lt h p⟩ else 0)
      = ∑ R : Fin (a * b), g R := by
  rw [Finset.sum_range]
  calc ∑ i : Fin a, (if h : (i : ℕ) < a then ∑ p : Fin b, g ⟨b * (i : ℕ) + p.val, block_lt h p⟩ else 0)
      = ∑ i : Fin a, ∑ p : Fin b, g ⟨b * (i : ℕ) + p.val, block_lt i.isLt p⟩ :=
        Finset.sum_congr rfl fun i _ => dif_pos i.isLt
    _ = ∑ x : Fin a × Fin b, g ⟨b * (x.1 : ℕ) + x.2.val, block_lt x.1.isLt x.2⟩ :=
        (Fintype.sum_prod_type' fun (i : Fin a) (p : Fin b) => g ⟨b * (i : ℕ) + p.val, block_lt i.isLt p⟩).symm
    _ = ∑ R : Fin (a * b), g R :=
        Fintype.sum_equiv finProdFinEquiv _ _ fun x => congrArg g (Fin.ext (by
          show b * (x.1 : ℕ) + x.2.val = (finProdFinEquiv x : ℕ)
          rw [finProdFinEquiv_apply_val]
          exact Nat.add_comm _ _))

/-- Eight blocks of 1024 rows are the 8192 rows. -/
theorem sum_blocks_8_1024 {M : Type*} [AddCommMonoid M] (g : Fin 8192 → M) :
    ∑ t ∈ Finset.range 8, (if h : t < 8 then ∑ p : Fin 1024, g ⟨1024 * t + p.val, by omega⟩ else 0)
      = ∑ R : Fin 8192, g R :=
  sum_blocks 8 1024 g

end BlockSum
-- ==== Proof.KI.Val1.lean ====
/-
  Region 1's result array as one function of the arrays the region finds.

  Point t of the 4 x 2 x 8 grid is (i, j, k) with t = (2 i + j) 8 + k. There the X block is rows 1024 i … of columns
  512 k …, the W block rows 2048 j … of columns 512 k …, the bias block entries 2048 j …. By induction along k the
  accumulator after point t holds, at (p, g), the sum over the slices s ≤ k of sum_kk X[1024 i + p, 512 s + kk] * W[2048 j + g, 512 s + kk];
  at k = 7 that is the whole inner product over the 4096 columns, and the block written back is that plus the bias.
  The 4 x 2 output blocks tile the result array.
-/
import proofs.«118693_j25589415149863_2_alg».proof.Proof.KI.R1
import proofs.«118693_j25589415149863_2_alg».proof.Proof.KI.Pay1
import proofs.«118693_j25589415149863_2_alg».proof.Proof.Spec
import proofs.«118693_j25589415149863_2_alg».proof.Proof.LibBlockSum
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr Cert.KernelIdeal.Pay Cert.Codebook
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The index maps, decided over the grid -/

theorem idx1 : ∀ t : Fin cfg1.N, win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 1) = t.val / 8 % 2
    ∧ win1_3.index t (0 : Fin 2) = t.val / 16 ∧ win1_3.index t (1 : Fin 2) = t.val / 8 % 2 :=
  (by decide +kernel : ∀ t : Fin grid1.N, _)

/-- Column 512 s + kk of the contracted axis (s read modulo 8). -/
def colIdx (s : ℕ) (kk : Fin 512) : Fin 4096 := ⟨512 * (s % 8) + kk.val, by have := kk.isLt; omega⟩

/-- The arrays the region reads, as functions of literal indices. -/
abbrev arrX (c : Dev nD) : (Sh2 4096 4096).Idx → EReal := V c main_arg0
abbrev arrW (c : Dev nD) : (Sh2 4096 4096).Idx → EReal := V c main_v0
abbrev arrB (c : Dev nD) : (Sh1 4096).Idx → EReal := V c main_arg7

/-! ## The blocks read at array indices -/

theorem blkX (c : Dev nD) (t : Fin cfg1.N) (i k : ℕ) (hi : t.val / 16 = i) (hk : t.val % 8 = k) (p : Fin 1024) (kk : Fin 512)
    (hr : i * 1024 + p.val < 4096) :
    iblk1 V c 0 t (ix2 p kk) = arrX V c (ix2 ⟨i * 1024 + p.val, hr⟩ (colIdx k kk)) := by
  obtain ⟨e0, e1, -⟩ := idx1 t
  unfold iblk1
  show V c main_arg0 (((cfg1.win 0).blk t).view.emb (ix2 p kk)) = _
  refine congrArg (V c main_arg0) ?_
  funext a; apply Fin.ext
  match a with
  | ⟨0, _⟩ => show win1_0.index t (0 : Fin 2) * 1024 + 1 * p.val = i * 1024 + p.val; omega
  | ⟨1, _⟩ => show win1_0.index t (1 : Fin 2) * 512 + 1 * kk.val = 512 * (k % 8) + kk.val; omega

theorem blkW (c : Dev nD) (t : Fin cfg1.N) (j k : ℕ) (hj : t.val / 8 % 2 = j) (hk : t.val % 8 = k) (g : Fin 2048) (kk : Fin 512)
    (hr : j * 2048 + g.val < 4096) :
    iblk1 V c 1 t (ix2 g kk) = arrW V c (ix2 ⟨j * 2048 + g.val, hr⟩ (colIdx k kk)) := by
  obtain ⟨-, -, e2, e3, -⟩ := idx1 t
  unfold iblk1
  show V c main_v0 (((cfg1.win 1).blk t).view.emb (ix2 g kk)) = _
  refine congrArg (V c main_v0) ?_
  funext a; apply Fin.ext
  match a with
  | ⟨0, _⟩ => show win1_1.index t (0 : Fin 2) * 2048 + 1 * g.val = j * 2048 + g.val; omega
  | ⟨1, _⟩ => show win1_1.index t (1 : Fin 2) * 512 + 1 * kk.val = 512 * (k % 8) + kk.val; omega

theorem blkB (c : Dev nD) (t : Fin cfg1.N) (j : ℕ) (hj : t.val / 8 % 2 = j) (g : Fin 2048) (hr : j * 2048 + g.val < 4096) :
    iblk1 V c 2 t (ix1 g) = arrB V c (ix1 ⟨j * 2048 + g.val, hr⟩) := by
  obtain ⟨-, -, -, -, e4, -⟩ := idx1 t
  unfold iblk1
  show V c main_arg7 (((cfg1.win 2).blk t).view.emb (ix1 g)) = _
  refine congrArg (V c main_arg7) ?_
  funext a; apply Fin.ext
  match a with
  | ⟨0, _⟩ => show win1_2.index t (0 : Fin 1) * 2048 + 1 * g.val = j * 2048 + g.val; omega

/-! ## The accumulator in closed form -/

/-- Slice s of the inner product of row 'row' of X with row 'col' of W. -/
def slice (c : Dev nD) (row col : Fin 4096) (s : ℕ) : EReal :=
  ∑ kk : Fin 512, arrX V c (ix2 row (colIdx s kk)) * arrW V c (ix2 col (colIdx s kk))

/-- One accumulation step on the point's blocks adds the point's slice. -/
theorem accStep_blk (c : Dev nD) (t : Fin cfg1.N) (i j k : ℕ) (hi : t.val / 16 = i) (hj : t.val / 8 % 2 = j) (hk : t.val % 8 = k)
    (p : Fin 1024) (g : Fin 2048) (hr : i * 1024 + p.val < 4096) (hc : j * 2048 + g.val < 4096) (a : Vec Ideal S1024x2048 .f32) :
    accStep (iblk1 V c 0 t) (iblk1 V c 1 t) a (ix2 p g) = a (ix2 p g) + slice V c ⟨i * 1024 + p.val, hr⟩ ⟨j * 2048 + g.val, hc⟩ k := by
  rw [accStep_apply]
  refine congrArg (a (ix2 p g) + ·) ?_
  unfold slice
  refine Finset.sum_congr rfl fun kk _ => ?_
  rw [blkX V c t i k hi hk p kk hr, blkW V c t j k hj hk g kk hc]

/-- After the point k of its row of eight the accumulator holds the slices 0 … k summed. -/
theorem acc_closed (c : Dev nD) : ∀ (k : ℕ) (t : Fin cfg1.N) (i j : ℕ), i < 4 → j < 2 → k < 8 → t.val = (i * 2 + j) * 8 + k →
    ∀ (p : Fin 1024) (g : Fin 2048) (hr : i * 1024 + p.val < 4096) (hc : j * 2048 + g.val < 4096),
      accAt V c t.val t.isLt (ix2 p g) = ∑ s ∈ Finset.range (k + 1), slice V c ⟨i * 1024 + p.val, hr⟩ ⟨j * 2048 + g.val, hc⟩ s
  | 0, t, i, j, hi, hj, _, ht, p, g, hr, hc => by
    rw [accAt_first V c t (by omega), accStep_blk V c t i j 0 (by omega) (by omega) (by omega) p g hr hc, pay1_apply, zero_add, Finset.sum_range_one]
  | k + 1, t, i, j, hi, hj, hk, ht, p, g, hr, hc => by
    have hN : t.val < 64 := lt_of_lt_of_eq t.isLt (show cfg1.N = 64 from N_1)
    rw [accAt_next V c t (by omega), accStep_blk V c t i j (k + 1) (by omega) (by omega) (by omega) p g hr hc, ldA, Finset.sum_range_succ]
    have ih := acc_closed c k ⟨t.val - 1, Nat.lt_of_le_of_lt (Nat.sub_le _ _) t.isLt⟩ i j hi hj (by omega) (by show t.val - 1 = _; omega) p g hr hc
    rw [show accAt V c (t.val - 1) (Nat.lt_of_le_of_lt (Nat.sub_le _ _) t.isLt) (ix2 p g) = _ from ih]

/-- The eight slices make the whole inner product. -/
theorem slices_all (c : Dev nD) (row col : Fin 4096) :
    (∑ s ∈ Finset.range 8, slice V c row col s) = ∑ q : Fin 4096, arrX V c (ix2 row q) * arrW V c (ix2 col q) := by
  have h := BlockSum.sum_blocks (M := EReal) 8 512 (fun R : Fin (8 * 512) => arrX V c (ix2 row R) * arrW V c (ix2 col R))
  refine Eq.trans ?_ h
  refine Finset.sum_congr rfl fun s hs => ?_
  have hs' : s < 8 := Finset.mem_range.mp hs
  rw [dif_pos hs']
  unfold slice
  refine Finset.sum_congr rfl fun kk _ => ?_
  have e : colIdx s kk = (⟨512 * s + kk.val, BlockSum.block_lt hs' kk⟩ : Fin (8 * 512)) := Fin.ext (by show 512 * (s % 8) + kk.val = 512 * s + kk.val; rw [Nat.mod_eq_of_lt hs'])
  rw [e]

/-! ## The result array -/

/-- What the result array ends holding: x @ M^T + bias with M the matrix the region finds in the intermediate buffer. -/
def G1 (c : Dev nD) : (Sh2 4096 4096).Idx → EReal :=
  fun idx => linear (arrX V c) (fun g q => arrW V c (ix2 g q)) (arrB V c) (idx 0) (idx 1)

theorem hzO : (![0, 0] : Fin 2 → Nat) = fun _ => 0 := funext fun a => by fin_cases a <;> rfl

/-- What a flushing point (k = 7) writes back is its block of G1. -/
theorem flushed1_3_eq (c : Dev nD) (t : Fin cfg1.N) (hf : (cfg1.win 3).flush t = true) :
    (dat1 V c).flushed 3 t = ((cfg1.win 3).blk t).view.read (Elt Ideal) (G1 V c) := by
  have h7 : t.val % 8 = 7 := (flush1_3 t).mp hf
  have hN : t.val < 64 := lt_of_lt_of_eq t.isLt (show cfg1.N = 64 from N_1)
  obtain ⟨-, -, -, -, -, e5, e6⟩ := idx1 t
  show (cfg1.win 3).cut (grid1.coords t) ((dat1 V c).after 3 t) = _
  rw [after1_3]
  funext y
  obtain ⟨p, g, rfl⟩ : ∃ (p : Fin 1024) (g : Fin 2048), y = ix2 p g := ⟨y 0, y 1, eq_ix2 y⟩
  have hr : t.val / 16 * 1024 + p.val < 4096 := by have := p.isLt; omega
  have hc : t.val / 8 % 2 * 2048 + g.val < 4096 := by have := g.isLt; omega
  show outStep (accAt V c t.val t.isLt) (iblk1 V c 2 t) (ix2 p g) = G1 V c (((cfg1.win 3).blk t).view.emb (ix2 p g))
  rw [outStep_apply, acc_closed V c 7 t (t.val / 16) (t.val / 8 % 2) (by omega) (by omega) (by omega) (by omega) p g hr hc,
    slices_all, blkB V c t (t.val / 8 % 2) rfl g hc]
  have hemb : ((cfg1.win 3).blk t).view.emb (ix2 p g) = ix2 (⟨t.val / 16 * 1024 + p.val, hr⟩ : Fin 4096) (⟨t.val / 8 % 2 * 2048 + g.val, hc⟩ : Fin 4096) := by
    funext a; apply Fin.ext
    match a with
    | ⟨0, _⟩ => show win1_3.index t (0 : Fin 2) * 1024 + 1 * p.val = t.val / 16 * 1024 + p.val; omega
    | ⟨1, _⟩ => show win1_3.index t (1 : Fin 2) * 2048 + 1 * g.val = t.val / 8 % 2 * 2048 + g.val; omega
  rw [hemb]
  rfl

theorem mem_blk1_3 (t : Fin cfg1.N) (i : S4096x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v1).slice (win1_3.rect t)).set ↔ _
  rw [View.set_slice_whole, Rect.mem_set_unit]
  exact Iff.rfl

/-- Every index of the result array lies in the block of the flushing point of its tile. -/
theorem cover1_3 (i : S4096x4096.Idx) : ∃ t : Fin cfg1.N, (cfg1.win 3).flush t = true ∧ i ∈ ((cfg1.win 3).blk t).view.set := by
  have hi0 : (i 0).val < 4096 := (i 0).isLt
  have hi1 : (i 1).val < 4096 := (i 1).isLt
  have hN : cfg1.N = 64 := N_1
  let t : Fin cfg1.N := ⟨((i 0).val / 1024 * 2 + (i 1).val / 2048) * 8 + 7, by omega⟩
  have htv : t.val = ((i 0).val / 1024 * 2 + (i 1).val / 2048) * 8 + 7 := rfl
  obtain ⟨-, -, -, -, -, e5, e6⟩ := idx1 t
  refine ⟨t, (flush1_3 t).mpr (by omega), ?_⟩
  rw [mem_blk1_3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 2048 ≤ (i 1).val ∧ (i 1).val < win1_3.index t (1 : Fin 2) * 2048 + 2048; omega

/-- The result array after the region. -/
theorem final1 (c : Dev nD) : (dat1 V c).arrAt 3 cfg1.N = G1 V c :=
  (dat1 V c).arrAt_eq_of_cover 3 (G1 V c) (fun t hf => flushed1_3_eq V c t hf) cover1_3

end Cert.KernelIdeal.Val

end
-- ==== Proof.KI.Value.lean ====
/-
  The idealized kernel's result is the specification. Region 1 finds the arguments X and bias as launched and, in the
  intermediate buffer, the weight matrix region 0 built from Y, Z, a, b, c, d as launched; its result array is
  X @ M^T + bias with that matrix: the specification's 'out'.
-/
import proofs.«118693_j25589415149863_2_alg».proof.Proof.KI.Run
import proofs.«118693_j25589415149863_2_alg».proof.Proof.KI.Val0
import proofs.«118693_j25589415149863_2_alg».proof.Proof.KI.Val1

set_option maxRecDepth 16384

noncomputable section

namespace Cert.KernelIdeal.Val

open Cert.KernelIdeal Cert.KernelIdeal.Gen Cert.KernelIdeal.Fr Cert.Codebook
open Idealize.ShloMosaic Idealize.ShloMosaic.TcCoe Idealize.ShloMosaic.ValueIdx
open Idealize.SL Idealize.SL.Sem

variable (m : (ℓ : Loc nD τ sig) → Buf (Elt Ideal) ℓ)

/-- Region 1 finds X as launched (region 0 does not touch it). -/
theorem entryX (c : Dev nD) : arrX (V1 m) c = m ((c : Thread nD τ).loc main_arg0) :=
  W1_of_ne m c main_arg0 (by decide)

/-- Region 1 finds the bias as launched. -/
theorem entryB (c : Dev nD) : arrB (V1 m) c = m ((c : Thread nD τ).loc main_arg7) :=
  W1_of_ne m c main_arg7 (by decide)

/-- Region 1 finds the weight matrix of the launch arrays in the intermediate buffer. -/
theorem entryW (c : Dev nD) (g q : Fin 4096) :
    arrW (V1 m) c (ix2 g q) = wMat (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) g q := by
  show V1 m c main_v0 (ix2 g q) = _
  rw [V1_main_v0 m c, final0 (V0 m) c]
  rfl

/-- The result buffer's final contents. -/
theorem kernel_value (c : Dev nD) :
    (dat1 (V1 m) c).arrAt 3 cfg1.N = Cert.Codebook.out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  rw [final1 (V1 m) c]
  funext idx
  unfold G1 Cert.Codebook.out Cert.Codebook.outEntry
  rw [entryX m c, entryB m c]
  unfold Cert.Codebook.linear
  refine congrArg (· + _) ?_
  refine Finset.sum_congr rfl fun q _ => ?_
  exact congrArg (fun x : EReal => (_ : EReal) * x) (entryW m c _ _)

end Cert.KernelIdeal.Val

end
-- ==== Proof.Ref.lean ====
/-
  The reference program's result is the specification: every stage of the host program read at an index
  and identified with the corresponding term of Cert.Codebook.out.
-/
import proofs.«118693_j25589415149863_2_alg».proof.Proof.Gen.ReferenceIdeal.Read
import proofs.«118693_j25589415149863_2_alg».proof.Proof.Spec
import Idealize.ShloMosaic.Lib.ValueIdx
import Idealize.ShloMosaic.Lib.Pipeline.Value
import Idealize.ShloMosaic.PureOps.Ideal.Laws

noncomputable section

namespace Cert.ReferenceIdeal.IsSpec

open Idealize.ShloMosaic Idealize.ShloMosaic.ValueIdx
open Cert.ReferenceIdeal Cert.ReferenceIdeal.Read Cert.Codebook

/-! ## Index equations

  Each stage reads its operand at an index computed coordinate by coordinate; at an index given by its coordinates
  these are again indices given by coordinates. -/

theorem lidx6 (k : Fin 4) (r c : Fin 8) (y z : Fin 512) (i : Fin 64) :
    lidx_main_v6 (ix5 k r c y z) i = ix5 k r c y i := by
  funext a; match a with | ⟨0, _⟩ => rfl | ⟨1, _⟩ => rfl | ⟨2, _⟩ => rfl | ⟨3, _⟩ => rfl | ⟨4, _⟩ => rfl

theorem ridx6 (k : Fin 4) (r c : Fin 8) (y z : Fin 512) (i : Fin 64) :
    ridx_main_v6 (ix5 k r c y z) i = ix5 k r c i z := by
  funext a; match a with | ⟨0, _⟩ => rfl | ⟨1, _⟩ => rfl | ⟨2, _⟩ => rfl | ⟨3, _⟩ => rfl | ⟨4, _⟩ => rfl

theorem idx7 (k : Fin 4) (r c : Fin 8) (y : Fin 512) (i : Fin 64) :
    idx_main_v7 (ix4 k r c y) i = ix5 k r c y i := by
  funext a; match a with | ⟨0, _⟩ => rfl | ⟨1, _⟩ => rfl | ⟨2, _⟩ => rfl | ⟨3, _⟩ => rfl | ⟨4, _⟩ => rfl

theorem idx9 (k : Fin 4) (r c : Fin 8) (z : Fin 512) (i : Fin 64) :
    idx_main_v9 (ix4 k r c z) i = ix5 k r c i z := by
  funext a; match a with | ⟨0, _⟩ => rfl | ⟨1, _⟩ => rfl | ⟨2, _⟩ => rfl | ⟨3, _⟩ => rfl | ⟨4, _⟩ => rfl

theorem idx11 (k : Fin 4) (r c : Fin 8) (y z : Fin 512) :
    idx_main_v11 (ix5 k r c y z) = ix5 k r c (0 : Fin 1) (0 : Fin 1) := by
  funext a; match a with | ⟨0, _⟩ => rfl | ⟨1, _⟩ => rfl | ⟨2, _⟩ => rfl | ⟨3, _⟩ => rfl | ⟨4, _⟩ => rfl

theorem idx13_15 (k : Fin 4) (r c : Fin 8) (y z : Fin 512) :
    idx_main_v13 (idx_main_v15 (ix5 k r c y z)) = ix5 k r c (0 : Fin 1) (0 : Fin 1) := by
  funext a; match a with | ⟨0, _⟩ => rfl | ⟨1, _⟩ => rfl | ⟨2, _⟩ => rfl | ⟨3, _⟩ => rfl | ⟨4, _⟩ => rfl

theorem idx8_15 (k : Fin 4) (r c : Fin 8) (y z : Fin 512) :
    idx_main_v8 (idx_main_v15 (ix5 k r c y z)) = ix4 k r c y := by
  funext a; match a with | ⟨0, _⟩ => rfl | ⟨1, _⟩ => rfl | ⟨2, _⟩ => rfl | ⟨3, _⟩ => rfl

theorem idx17_19 (k : Fin 4) (r c : Fin 8) (y z : Fin 512) :
    idx_main_v17 (idx_main_v19 (ix5 k r c y z)) = ix5 k r c (0 : Fin 1) (0 : Fin 1) := by
  funext a; match a with | ⟨0, _⟩ => rfl | ⟨1, _⟩ => rfl | ⟨2, _⟩ => rfl | ⟨3, _⟩ => rfl | ⟨4, _⟩ => rfl

theorem idx10_19 (k : Fin 4) (r c : Fin 8) (y z : Fin 512) :
    idx_main_v10 (idx_main_v19 (ix5 k r c y z)) = ix4 k r c z := by
  funext a; match a with | ⟨0, _⟩ => rfl | ⟨1, _⟩ => rfl | ⟨2, _⟩ => rfl | ⟨3, _⟩ => rfl

theorem idx21 (r c : Fin 8) (y z : Fin 512) (k : Fin 4) :
    idx_main_v21 (ix4 r c y z) k = ix5 k r c y z := by
  funext a; match a with | ⟨0, _⟩ => rfl | ⟨1, _⟩ => rfl | ⟨2, _⟩ => rfl | ⟨3, _⟩ => rfl | ⟨4, _⟩ => rfl

theorem idx22 (r c : Fin 8) (y z : Fin 512) :
    idx_main_v22 (ix4 r c y z) = ix4 r c (0 : Fin 1) (0 : Fin 1) := by
  funext a; match a with | ⟨0, _⟩ => rfl | ⟨1, _⟩ => rfl | ⟨2, _⟩ => rfl | ⟨3, _⟩ => rfl

theorem idx26 (q g : Fin 4096) : idx_main_v26 (ix2 q g) = ix2 g q := by
  funext a; match a with | ⟨0, _⟩ => rfl | ⟨1, _⟩ => rfl

theorem lidx27 (p g k : Fin 4096) : lidx_main_v27 (ix2 p g) k = ix2 p k := by
  funext a; match a with | ⟨0, _⟩ => rfl | ⟨1, _⟩ => rfl

theorem ridx27 (p g k : Fin 4096) : ridx_main_v27 (ix2 p g) k = ix2 k g := by
  funext a; match a with | ⟨0, _⟩ => rfl | ⟨1, _⟩ => rfl

theorem idx28_29 (p g : Fin 4096) : idx_main_v28 (idx_main_v29 (ix2 p g)) = ix1 g := by
  funext a; match a with | ⟨0, _⟩ => rfl

/-! ## The thresholded bits -/

/-- The converted comparison of Y against one half is the 0/1 number of the specification. -/
theorem yb_apply (x1 : (⟨S4x8x8x512x64, .f32⟩ : BufTy).Contents (Elt Ideal)) (i : S4x8x8x512x64.Idx) :
    val_main_v2 (F := Ideal) x1 i = bitOf (x1 i) := by
  rw [val_main_v2_apply, val_main_v1_apply, val_main_v0_apply, val_main_cst_apply]
  rfl

/-- The converted comparison of Z against one half is the 0/1 number of the specification. -/
theorem zb_apply (x2 : (⟨S4x8x8x64x512, .f32⟩ : BufTy).Contents (Elt Ideal)) (i : S4x8x8x64x512.Idx) :
    val_main_v5 (F := Ideal) x2 i = bitOf (x2 i) := by
  rw [val_main_v5_apply, val_main_v4_apply, val_main_v3_apply, val_main_cst_0_apply]
  rfl

/-! ## The three sums over the inner axis -/

/-- The batched product of the bit arrays, entry (k, r, c, y, z): the sum over the 64 inner positions. -/
theorem core_apply (x1 : (⟨S4x8x8x512x64, .f32⟩ : BufTy).Contents (Elt Ideal))
    (x2 : (⟨S4x8x8x64x512, .f32⟩ : BufTy).Contents (Elt Ideal)) (k : Fin 4) (r c : Fin 8) (y z : Fin 512) :
    val_main_v6 (F := Ideal) x1 x2 (ix5 k r c y z) = core x1 x2 k r c y z := by
  rw [val_main_v6_apply]
  unfold core
  refine Finset.sum_congr rfl fun i _ => ?_
  rw [yb_apply, zb_apply, lidx6, ridx6]

/-- The row sums of the Y bits: the initial value is the zero word, so only the sum remains. -/
theorem ysum_apply (x1 : (⟨S4x8x8x512x64, .f32⟩ : BufTy).Contents (Elt Ideal)) (k : Fin 4) (r c : Fin 8) (y : Fin 512) :
    val_main_v7 (F := Ideal) x1 (ix4 k r c y) = ysum x1 k r c y := by
  rw [val_main_v7_apply, val_main_cst_1_apply, Ideal.ofBits_def, Ideal.ofBits_zero_f32, zero_add]
  unfold ysum
  refine Finset.sum_congr rfl fun i _ => ?_
  rw [yb_apply, idx7]

/-- The column sums of the Z bits. -/
theorem zsum_apply (x2 : (⟨S4x8x8x64x512, .f32⟩ : BufTy).Contents (Elt Ideal)) (k : Fin 4) (r c : Fin 8) (z : Fin 512) :
    val_main_v9 (F := Ideal) x2 (ix4 k r c z) = zsum x2 k r c z := by
  rw [val_main_v9_apply, val_main_cst_2_apply, Ideal.ofBits_def, Ideal.ofBits_zero_f32, zero_add]
  unfold zsum
  refine Finset.sum_congr rfl fun i _ => ?_
  rw [zb_apply, idx9]

/-! ## One bit plane, the four planes summed, and the tile offset -/

/-- One bit plane's entry: the three scaled terms, each scale read at (k, r, c, 0, 0) through its broadcasts. -/
theorem plane_apply (x1 : (⟨S4x8x8x512x64, .f32⟩ : BufTy).Contents (Elt Ideal))
    (x2 : (⟨S4x8x8x64x512, .f32⟩ : BufTy).Contents (Elt Ideal))
    (x3 x4 x5 : (⟨S4x8x8x1x1, .f32⟩ : BufTy).Contents (Elt Ideal)) (k : Fin 4) (r c : Fin 8) (y z : Fin 512) :
    val_main_v20 (F := Ideal) x1 x2 x3 x4 x5 (ix5 k r c y z) = plane x1 x2 x3 x4 x5 k r c y z := by
  rw [val_main_v20_apply, val_main_v16_apply, val_main_v12_apply, val_main_v11_apply, core_apply,
    val_main_v15_apply, val_main_v14_apply, val_main_v13_apply, val_main_v8_apply,
    val_main_v19_apply, val_main_v18_apply, val_main_v17_apply, val_main_v10_apply,
    idx11, idx13_15, idx8_15, idx17_19, idx10_19, ysum_apply, zsum_apply]
  rfl

/-- W[r, c, y, z]: the sum over the four planes (initial value the zero word) plus the offset d[r, c, 0, 0]. -/
theorem wEntry_apply (x1 : (⟨S4x8x8x512x64, .f32⟩ : BufTy).Contents (Elt Ideal))
    (x2 : (⟨S4x8x8x64x512, .f32⟩ : BufTy).Contents (Elt Ideal))
    (x3 x4 x5 : (⟨S4x8x8x1x1, .f32⟩ : BufTy).Contents (Elt Ideal))
    (x6 : (⟨S8x8x1x1, .f32⟩ : BufTy).Contents (Elt Ideal)) (r c : Fin 8) (y z : Fin 512) :
    val_main_v23 (F := Ideal) x1 x2 x3 x4 x5 x6 (ix4 r c y z) = wEntry x1 x2 x3 x4 x5 x6 r c y z := by
  rw [val_main_v23_apply, val_main_v21_apply, val_main_cst_3_apply, Ideal.ofBits_def, Ideal.ofBits_zero_f32, zero_add,
    val_main_v22_apply, idx22]
  have hs : ∀ k : Fin 4, val_main_v20 (F := Ideal) x1 x2 x3 x4 x5 (idx_main_v21 (ix4 r c y z) k)
      = plane x1 x2 x3 x4 x5 k r c y z := fun k => by rw [idx21, plane_apply]
  rw [Finset.sum_congr rfl fun k _ => hs k]
  rfl

/-! ## The layer's matrix: transpose, reshape, transpose -/

/-- Row g = r*512 + y and column q = c*512 + z of the flattened array: the reshape reads the linear position
    g*4096 + q in the coordinates of [8, 512, 8, 512], and the transpose (0,2,1,3) swaps the two middle ones, so the
    entry read is W[g/512, q/512, g%512, q%512]. -/
theorem idx_flat (g q : Fin 4096) :
    idx_main_v24 (idx_main_v25 (ix2 g q))
      = ix4 (⟨g.val / 512, by omega⟩ : Fin 8) (⟨q.val / 512, by omega⟩ : Fin 8)
          (⟨g.val % 512, by omega⟩ : Fin 512) (⟨q.val % 512, by omega⟩ : Fin 512) := by
  have hg : g.val < 4096 := g.isLt
  have hq : q.val < 4096 := q.isLt
  funext a
  match a with
  | ⟨0, _⟩ => exact Fin.ext (show (g.val * 4096 + q.val) / 2097152 = g.val / 512 by omega)
  | ⟨1, _⟩ => exact Fin.ext (show (g.val * 4096 + q.val) / 512 % 8 = q.val / 512 by omega)
  | ⟨2, _⟩ => exact Fin.ext (show (g.val * 4096 + q.val) / 4096 % 512 = g.val % 512 by omega)
  | ⟨3, _⟩ => exact Fin.ext (show (g.val * 4096 + q.val) % 512 = q.val % 512 by omega)

/-- The reshaped array at (g, q) is the layer's matrix M[g, q]. -/
theorem wMat_apply (x1 : (⟨S4x8x8x512x64, .f32⟩ : BufTy).Contents (Elt Ideal))
    (x2 : (⟨S4x8x8x64x512, .f32⟩ : BufTy).Contents (Elt Ideal))
    (x3 x4 x5 : (⟨S4x8x8x1x1, .f32⟩ : BufTy).Contents (Elt Ideal))
    (x6 : (⟨S8x8x1x1, .f32⟩ : BufTy).Contents (Elt Ideal)) (g q : Fin 4096) :
    val_main_v25 (F := Ideal) x1 x2 x3 x4 x5 x6 (ix2 g q) = wMat x1 x2 x3 x4 x5 x6 g q := by
  rw [val_main_v25_apply, val_main_v24_apply, idx_flat, wEntry_apply]
  rfl

/-- The transposed matrix at (q, g) is M[g, q]. -/
theorem wMatT_apply (x1 : (⟨S4x8x8x512x64, .f32⟩ : BufTy).Contents (Elt Ideal))
    (x2 : (⟨S4x8x8x64x512, .f32⟩ : BufTy).Contents (Elt Ideal))
    (x3 x4 x5 : (⟨S4x8x8x1x1, .f32⟩ : BufTy).Contents (Elt Ideal))
    (x6 : (⟨S8x8x1x1, .f32⟩ : BufTy).Contents (Elt Ideal)) (q g : Fin 4096) :
    val_main_v26 (F := Ideal) x1 x2 x3 x4 x5 x6 (ix2 q g) = wMat x1 x2 x3 x4 x5 x6 g q := by
  rw [val_main_v26_apply, idx26, wMat_apply]

/-! ## The linear layer -/

/-- The reference program computes the specification. -/
theorem ref_is_spec (x0 : (⟨S4096x4096, .f32⟩ : BufTy).Contents (Elt Ideal))
    (x1 : (⟨S4x8x8x512x64, .f32⟩ : BufTy).Contents (Elt Ideal))
    (x2 : (⟨S4x8x8x64x512, .f32⟩ : BufTy).Contents (Elt Ideal))
    (x3 x4 x5 : (⟨S4x8x8x1x1, .f32⟩ : BufTy).Contents (Elt Ideal))
    (x6 : (⟨S8x8x1x1, .f32⟩ : BufTy).Contents (Elt Ideal))
    (x7 : (⟨S4096, .f32⟩ : BufTy).Contents (Elt Ideal)) :
    val_main_v30 (F := Ideal) x0 x1 x2 x3 x4 x5 x6 x7 = Cert.Codebook.out x0 x1 x2 x3 x4 x5 x6 x7 := by
  funext j
  obtain ⟨p, g, rfl⟩ : ∃ (p g : Fin 4096), j = ix2 p g := ⟨j 0, j 1, eq_ix2 j⟩
  rw [val_main_v30_apply, val_main_v27_apply, val_main_v29_apply, val_main_v28_apply, idx28_29]
  have hs : ∀ k : Fin 4096, x0 (lidx_main_v27 (ix2 p g) k)
        * val_main_v26 (F := Ideal) x1 x2 x3 x4 x5 x6 (ridx_main_v27 (ix2 p g) k)
      = x0 (ix2 p k) * wMat x1 x2 x3 x4 x5 x6 g k := fun k => by rw [lidx27, ridx27, wMatT_apply]
  rw [Finset.sum_congr rfl fun k _ => hs k]
  rfl

end Cert.ReferenceIdeal.IsSpec

end
-- ==== Proof.lean ====
/-
  The certificate's claims, assembled.

  Both programs compute, at every entry (p, g) of a 4096 x 4096 result,
     (sum over q of X[p, q] * M[g, q]) + bias[g],    M[512 r + y, 512 c + z] = W[r, c, y, z],
     W[r, c, y, z] = (sum over the four bit planes k of a_k * (Yb_k Zb_k)[y, z] + b_k * rowsum(Yb_k)[y] + c_k * colsum(Zb_k)[z]) + d[r, c],
  with Yb = [Y > 1/2], Zb = [Z > 1/2] as 0/1 numbers (Proof/Spec.lean). The kernel builds M tile by tile in a first
  region, accumulating the planes in order, and multiplies in a second region that accumulates the contracted axis
  in eight slices; the reference does each in one operation. The two differ only in the grouping of finite sums of
  extended reals, which commutativity and associativity of + reconcile, so the precondition is never opened.
  The frames (termination, no fault, arguments unchanged) of the two kernel programs are each region's per-point
  triple put through the pipeline's launch; the reference's frame is its run with the result dropped.
-/
import proofs.«118693_j25589415149863_2_alg».proof.Defs
import proofs.«118693_j25589415149863_2_alg».proof.Proof.Gen.Kernel
import proofs.«118693_j25589415149863_2_alg».proof.Proof.Gen.KernelIdeal
import proofs.«118693_j25589415149863_2_alg».proof.Proof.Gen.ReferenceIdeal
import proofs.«118693_j25589415149863_2_alg».proof.Proof.Gen.Pre_finite_inputs
import proofs.«118693_j25589415149863_2_alg».proof.Proof.Gen.ReferenceIdeal.Run
import proofs.«118693_j25589415149863_2_alg».proof.Proof.Gen.ReferenceIdeal.Read
import proofs.«118693_j25589415149863_2_alg».proof.Proof.K.Run
import proofs.«118693_j25589415149863_2_alg».proof.Proof.KI.Run
import proofs.«118693_j25589415149863_2_alg».proof.Proof.KI.Value
import proofs.«118693_j25589415149863_2_alg».proof.Proof.Ref
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization removed eight round trips f32 -> bf16 -> f32 (of the thresholded 0/1 blocks before their row and
    column sums); each is the identity at the ideal instance. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- Both idealized programs end with the specification's function of the (agreeing) arguments in their result. -/
theorem algebraic : Cert.algebraic_KernelIdeal_ReferenceIdeal := by
  intro m ρ m' ρ' _ hagree
  refine ⟨fun c => Cert.Codebook.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Val.kernel_value m c), (h c).2⟩)
      (Cert.KernelIdeal.Fr.run_value m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v30_eq, Cert.ReferenceIdeal.IsSpec.ref_is_spec, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
